-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x24 : Shape := ⟨2, ![50000, 24]⟩
abbrev S2x400000 : Shape := ⟨2, ![2, 400000]⟩
abbrev S24x128 : Shape := ⟨2, ![24, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x12 : Shape := ⟨2, ![128, 12]⟩
abbrev S12 : Shape := ⟨1, ![12]⟩
abbrev S_ : Shape := ⟨0, ![]⟩

class Facts : Prop where
  bcast_S_S50000x24 : S_.BroadcastsInDim S50000x24 (![] : Fin 0 → Fin S50000x24.rank)
  reducesTo_S50000x24_S_d0_1 : S50000x24.ReducesTo [0, 1] S_
  h_S_ : 0 < S_.numel
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part4 {F : FTy → Type} [FloatOps F] (main_arg15 : FVec F S12 .f32) (main_v63 : IVec S_ 1) (main_v67 : IVec S_ 1) : IVec S_ 1 :=
  let main_v68 : IVec S_ 1 := andi main_v63 main_v67
  let main_v69 : FVec F S12 .f32 := Host.absf main_arg15
  let main_cst_26 : FVec F S_ .f32 := constant S_ .f32 0x7F800000#32
  let main_v70 : FVec F S12 .f32 := broadcastInDim S12 ![] bcast_S_S12 main_cst_26
  let main_v71 : IVec S12 1 := cmpf .olt main_v69 main_v70
  let main_c_27 : IVec S_ 1 := constantI S_ 1 1#1
  let main_v72 : IVec S_ 1 := (fun x v => Host.reduce IntOp.andi x v reducesTo_S12_S_d0 h_S_) main_v71 main_c_27
  let main_v73 : IVec S_ 1 := andi main_v68 main_v72
  main_v73

def fn_part3 {F : FTy → Type} [FloatOps F] (main_arg12 : FVec F S256x128 .f32) (main_arg13 : FVec F S128 .f32) (main_arg14 : FVec F S128x12 .f32) (main_arg15 : FVec F S12 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x12 .f32 := Host.absf main_arg14
  let main_cst_24 : FVec F S_ .f32 := constant S_ .f32 0x7F800000#32
  let main_v65 : FVec F S128x12 .f32 := broadcastInDim S128x12 ![] bcast_S_S128x12 main_cst_24
  let main_v66 : IVec S128x12 1 := cmpf .olt main_v64 main_v65
  let main_c_25 : IVec S_ 1 := constantI S_ 1 1#1
  let main_v67 : IVec S_ 1 := (fun x v => Host.reduce IntOp.andi x v reducesTo_S128x12_S_d0_1 h_S_) main_v66 main_c_25
  fn_part4 (F := F) main_arg15 main_v63 main_v67

def fn_part2 {F : FTy → Type} [FloatOps F] (main_arg8 : FVec F S256x256 .f32) (main_arg9 : FVec F S256x256 .f32) (main_arg10 : FVec F S256 .f32) (main_arg11 : FVec F S256x256 .f32) (main_arg12 : FVec F S256x128 .f32) (main_arg13 : FVec F S128 .f32) (main_arg14 : FVec F S128x12 .f32) (main_arg15 : FVec F S12 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x128 .f32) (main_arg13 : FVec F S128 .f32) (main_arg14 : FVec F S128x12 .f32) (main_arg15 : FVec F S12 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x24 .f32) (main_arg1 : IVec S2x400000 32) (main_arg2 : FVec F S24x128 .f32) (main_arg3 : FVec F S128 .f32) (main_arg4 : FVec F S128x256 .f32) (main_arg5 : FVec F S256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x128 .f32) (main_arg13 : FVec F S128 .f32) (main_arg14 : FVec F S128x12 .f32) (main_arg15 : FVec F S12 .f32) : IVec S_ 1 :=
  let main_v0 : FVec F S50000x24 .f32 := Host.absf main_arg0
  let main_cst : FVec F S_ .f32 := constant S_ .f32 0x7F800000#32
  let main_v1 : FVec F S50000x24 .f32 := broadcastInDim S50000x24 ![] bcast_S_S50000x24 main_cst
  let main_v2 : IVec S50000x24 1 := cmpf .olt main_v0 main_v1
  let main_c : IVec S_ 1 := constantI S_ 1 1#1
  let main_v3 : IVec S_ 1 := (fun x v => Host.reduce IntOp.andi x v reducesTo_S50000x24_S_d0_1 h_S_) main_v2 main_c
  let main_v4 : FVec F S24x128 .f32 := Host.absf main_arg2
  let main_cst_0 : FVec F S_ .f32 := constant S_ .f32 0x7F800000#32
  let main_v5 : FVec F S24x128 .f32 := broadcastInDim S24x128 ![] bcast_S_S24x128 main_cst_0
  let main_v6 : IVec S24x128 1 := cmpf .olt main_v4 main_v5
  let main_c_1 : IVec S_ 1 := constantI S_ 1 1#1
  let main_v7 : IVec S_ 1 := (fun x v => Host.reduce IntOp.andi x v reducesTo_S24x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x24 : Shape := ⟨2, ![50000, 24]⟩
abbrev S2x400000 : Shape := ⟨2, ![2, 400000]⟩
abbrev S24x128 : Shape := ⟨2, ![24, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x12 : Shape := ⟨2, ![128, 12]⟩
abbrev S12 : Shape := ⟨1, ![12]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S1x128 : Shape := ⟨2, ![1, 128]⟩
abbrev S1x256 : Shape := ⟨2, ![1, 256]⟩
abbrev S50000x256 : Shape := ⟨2, ![50000, 256]⟩
abbrev S2000x24 : Shape := ⟨2, ![2000, 24]⟩
abbrev S2000x256 : Shape := ⟨2, ![2000, 256]⟩
abbrev S2000x128 : Shape := ⟨2, ![2000, 128]⟩
abbrev S400000x256 : Shape := ⟨2, ![400000, 256]⟩
abbrev S2000x1 : Shape := ⟨2, ![2000, 1]⟩
abbrev S1x12 : Shape := ⟨2, ![1, 12]⟩
abbrev S50000x12 : Shape := ⟨2, ![50000, 12]⟩
abbrev S2000x12 : Shape := ⟨2, ![2000, 12]⟩

abbrev nBuf : Space → Nat
  | .hbm => 70
  | .vmem => 34
  | .smem => 0
  | _ => 0

abbrev bufTy : (tb : Table) → Fin (tcTables nBuf tb) → BufTy
  | .hbm, ⟨0, _⟩ => ⟨S50000x24, .f32⟩
  | .hbm, ⟨1, _⟩ => ⟨S2x400000, .i32⟩
  | .hbm, ⟨2, _⟩ => ⟨S24x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x128, .f32⟩
  | .hbm, ⟨13, _⟩ => ⟨S128, .f32⟩
  | .hbm, ⟨14, _⟩ => ⟨S128x12, .f32⟩
  | .hbm, ⟨15, _⟩ => ⟨S12, .f32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S_, .f32⟩
  | .hbm, ⟨21, _⟩ => ⟨S400000, .f32⟩
  | .hbm, ⟨22, _⟩ => ⟨S_, .f32⟩
  | .hbm, ⟨23, _⟩ => ⟨S50000, .f32⟩
  | .hbm, ⟨24, _⟩ => ⟨S400000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x128, .f32⟩
  | .hbm, ⟨34, _⟩ => ⟨S1x256, .f32⟩
  | .hbm, ⟨35, _⟩ => ⟨S50000x256, .bf16⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000x256, .bf16⟩
  | .hbm, ⟨45, _⟩ => ⟨S400000x256, .f32⟩
  | .hbm, ⟨46, _⟩ => ⟨S_, .f32⟩
  | .hbm, ⟨47, _⟩ => ⟨S50000x256, .f32⟩
  | .hbm, ⟨48, _⟩ => ⟨S400000x1, .i32⟩
  | .hbm, ⟨49, _⟩ => ⟨S50000x256, .f32⟩
  | .hbm, ⟨50, _⟩ => ⟨S1x256, .f32⟩
  | .hbm, ⟨51, _⟩ => ⟨S50000x256, .bf16⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S400000x256, .bf16⟩
  | .hbm, ⟨61, _⟩ => ⟨S400000x256, .f32⟩
  | .hbm, ⟨62, _⟩ => ⟨S_, .f32⟩
  | .hbm, ⟨63, _⟩ => ⟨S50000x256, .f32⟩
  | .hbm, ⟨64, _⟩ => ⟨S400000x1, .i32⟩
  | .hbm, ⟨65, _⟩ => ⟨S50000x256, .f32⟩
  | .hbm, ⟨66, _⟩ => ⟨S1x256, .f32⟩
  | .hbm, ⟨67, _⟩ => ⟨S1x128, .f32⟩
  | .hbm, ⟨68, _⟩ => ⟨S1x12, .f32⟩
  | .hbm, ⟨69, _⟩ => ⟨S50000x12, .f32⟩
  | .local _ .vmem, ⟨0, _⟩ => ⟨S2000x24, .f32⟩
  | .local _ .vmem, ⟨1, _⟩ => ⟨S2000x24, .f32⟩
  | .local _ .vmem, ⟨2, _⟩ => ⟨S24x128, .f32⟩
  | .local _ .vmem, ⟨3, _⟩ => ⟨S1x128, .f32⟩
  | .local _ .vmem, ⟨4, _⟩ => ⟨S128x256, .f32⟩
  | .local _ .vmem, ⟨5, _⟩ => ⟨S1x256, .f32⟩
  | .local _ .vmem, ⟨6, _⟩ => ⟨S2000x256, .bf16⟩
  | .local _ .vmem, ⟨7, _⟩ => ⟨S2000x256, .bf16⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S2000x256, .bf16⟩
  | .local _ .vmem, ⟨13, _⟩ => ⟨S2000x256, .bf16⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S2000x256, .bf16⟩
  | .local _ .vmem, ⟨18, _⟩ => ⟨S2000x256, .bf16⟩
  | .local _ .vmem, ⟨19, _⟩ => ⟨S2000x256, .f32⟩
  | .local _ .vmem, ⟨20, _⟩ => ⟨S2000x256, .f32⟩
  | .local _ .vmem, ⟨21, _⟩ => ⟨S2000x1, .f32⟩
  | .local _ .vmem, ⟨22, _⟩ => ⟨S2000x1, .f32⟩
  | .local _ .vmem, ⟨23, _⟩ => ⟨S2000x256, .bf16⟩
  | .local _ .vmem, ⟨24, _⟩ => ⟨S2000x256, .bf16⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S256x128, .f32⟩
  | .local _ .vmem, ⟨29, _⟩ => ⟨S1x128, .f32⟩
  | .local _ .vmem, ⟨30, _⟩ => ⟨S128x12, .f32⟩
  | .local _ .vmem, ⟨31, _⟩ => ⟨S1x12, .f32⟩
  | .local _ .vmem, ⟨32, _⟩ => ⟨S2000x12, .f32⟩
  | .local _ .vmem, ⟨33, _⟩ => ⟨S2000x12, .f32⟩
  | _, _ => ⟨S50000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x12 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x12 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x12 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S50000_S50000x1 : S50000.ShapeCasts S50000x1
  shapeCasts_S128_S1x128 : S128.ShapeCasts S1x128
  shapeCasts_S256_S1x256 : S256.ShapeCasts S1x256
  inb_S2000x24_S2000x24_0_0 : ∀ a, (![0, 0] : Fin 2 → Nat) a + S2000x24.size a ≤ S2000x24.size a
  h_S2000x24 : 0 < S2000x24.numel
  bitsLt_bf16_f32 : FTy.bits .bf16 < FTy.bits .f32
  inb_S24x128_S24x128_0_0 : ∀ a, (![0, 0] : Fin 2 → Nat) a + S24x128.size a ≤ S24x128.size a
  h_S24x128 : 0 < S24x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S12_S1x12 : S12.ShapeCasts S1x12
  inb_S256x128_S256x128_0_0 : ∀ a, (![0, 0] : Fin 2 → Nat) a + S256x128.size a ≤ S256x128.size a
  h_S256x128 : 0 < S256x128.numel
  inb_S128x12_S128x12_0_0 : ∀ a, (![0, 0] : Fin 2 → Nat) a + S128x12.size a ≤ S128x12.size a
  h_S128x12 : 0 < S128x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2000x12 : S1x12.Broadcasts S2000x12
  inb_S2000x12_S2000x12_0_0 : ∀ a, (![0, 0] : Fin 2 → Nat) a + S2000x12.size a ≤ S2000x12.size a
  h_S2000x12 : 0 < S2000x12.numel
  scatter_S50000_S400000x1_S400000_n_0_0_1_wf : ScatterDims.WF S50000 S400000x1 S400000 [] [0] [0] 1
  dot_S2000x24_S24x128_S2000x128_1_0_0_1_n_n_wf : DotDims.WF S2000x24 S24x128 S2000x128 [1] [0] [0] [1] [] []
  dot_S2000x128_S128x256_S2000x256_1_0_0_1_n_n_wf : DotDims.WF S2000x128 S128x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x12_S2000x12_1_0_0_1_n_n_wf : DotDims.WF S2000x128 S128x12 S2000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x24.size a ≤ S50000x24.size a
  hwx0_0 : ∀ i : grid0.Coords, EltTy.bits .f32 = 32 ∨ (Rect.block (s := S50000x24) S2000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .f32 = 32 ∨ (Rect.block (s := S24x128) S24x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .bf16 = 32 ∨ (Rect.block (s := S50000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .bf16 = 32 ∨ (Rect.block (s := S50000x256) S2000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S256x128.size a
  hwx2_6 : ∀ i : grid2.Coords, EltTy.bits .f32 = 32 ∨ (Rect.block (s := S256x128) S256x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x12.size a ≤ S128x12.size a
  hwx2_8 : ∀ i : grid2.Coords, EltTy.bits .f32 = 32 ∨ (Rect.block (s := S128x12) S128x12.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x12.size a ≤ S1x12.size a
  hwx2_9 : ∀ i : grid2.Coords, EltTy.bits .f32 = 32 ∨ (Rect.block (s := S1x12) S1x12.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x12.size a ≤ S50000x12.size a
  hwx2_10 : ∀ i : grid2.Coords, EltTy.bits .f32 = 32 ∨ (Rect.block (s := S50000x12) S2000x12.size (cc2_transform_10 i) (hinb2_10 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x24_S24x128_S2000x128_1_0_0_1_n_n : DotDims S2000x24 S24x128 S2000x128 where
  lhsContracting := [1]
  rhsContracting := [0]
  lhsNonContracting := [0]
  rhsNonContracting := [1]
  lhsBatch := []
  rhsBatch := []
  wf := dot_S2000x24_S24x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x12_S2000x12_1_0_0_1_n_n : DotDims S2000x128 S128x12 S2000x12 where
  lhsContracting := [1]
  rhsContracting := [0]
  lhsNonContracting := [0]
  rhsNonContracting := [1]
  lhsBatch := []
  rhsBatch := []
  wf := dot_S2000x128_S128x12_S2000x12_1_0_0_1_n_n_wf

abbrev win0_0 : Pipeline.Window sig grid0 :=
  Pipeline.Window.ofSpec (Memref.whole main_arg0) S2000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S256x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S128x12.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v42) S1x12.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v43) S2000x12.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x24 : Shape := ⟨2, ![50000, 24]⟩
abbrev S2x400000 : Shape := ⟨2, ![2, 400000]⟩
abbrev S24x128 : Shape := ⟨2, ![24, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x12 : Shape := ⟨2, ![128, 12]⟩
abbrev S12 : Shape := ⟨1, ![12]⟩
abbrev S1x400000 : Shape := ⟨2, ![1, 400000]⟩
abbrev S400000 : Shape := ⟨1, ![400000]⟩
abbrev S50000x128 : Shape := ⟨2, ![50000, 128]⟩
abbrev S1x128 : Shape := ⟨2, ![1, 128]⟩
abbrev S_ : Shape := ⟨0, ![]⟩
abbrev S50000x256 : Shape := ⟨2, ![50000, 256]⟩
abbrev S1x256 : Shape := ⟨2, ![1, 256]⟩
abbrev S400000x1 : Shape := ⟨2, ![400000, 1]⟩
abbrev S400000x256 : Shape := ⟨2, ![400000, 256]⟩
abbrev S50000 : Shape := ⟨1, ![50000]⟩
abbrev S50000x1 : Shape := ⟨2, ![50000, 1]⟩
abbrev S50000x12 : Shape := ⟨2, ![50000, 12]⟩
abbrev S1x12 : Shape := ⟨2, ![1, 12]⟩

abbrev nBuf : Space → Nat
  | .hbm => 113
  | .vmem => 0
  | .smem => 0
  | _ => 0

abbrev bufTy : (tb : Table) → Fin (tcTables nBuf tb) → BufTy
  | .hbm, ⟨0, _⟩ => ⟨S50000x24, .f32⟩
  | .hbm, ⟨1, _⟩ => ⟨S2x400000, .i32⟩
  | .hbm, ⟨2, _⟩ => ⟨S24x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x128, .f32⟩
  | .hbm, ⟨13, _⟩ => ⟨S128, .f32⟩
  | .hbm, ⟨14, _⟩ => ⟨S128x12, .f32⟩
  | .hbm, ⟨15, _⟩ => ⟨S12, .f32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x256, .f32⟩
  | .hbm, ⟨43, _⟩ => ⟨S_, .f32⟩
  | .hbm, ⟨44, _⟩ => ⟨S50000x256, .f32⟩
  | .hbm, ⟨45, _⟩ => ⟨S400000x1, .i32⟩
  | .hbm, ⟨46, _⟩ => ⟨S50000x256, .f32⟩
  | .hbm, ⟨47, _⟩ => ⟨S_, .f32⟩
  | .hbm, ⟨48, _⟩ => ⟨S400000, .f32⟩
  | .hbm, ⟨49, _⟩ => ⟨S_, .f32⟩
  | .hbm, ⟨50, _⟩ => ⟨S50000, .f32⟩
  | .hbm, ⟨51, _⟩ => ⟨S400000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S_, .i32⟩
  | .hbm, ⟨69, _⟩ => ⟨S400000, .i32⟩
  | .hbm, ⟨70, _⟩ => ⟨S400000, .i1⟩
  | .hbm, ⟨71, _⟩ => ⟨S_, .i32⟩
  | .hbm, ⟨72, _⟩ => ⟨S400000, .i32⟩
  | .hbm, ⟨73, _⟩ => ⟨S400000, .i32⟩
  | .hbm, ⟨74, _⟩ => ⟨S400000, .i32⟩
  | .hbm, ⟨75, _⟩ => ⟨S400000x1, .i32⟩
  | .hbm, ⟨76, _⟩ => ⟨S400000x256, .f32⟩
  | .hbm, ⟨77, _⟩ => ⟨S_, .f32⟩
  | .hbm, ⟨78, _⟩ => ⟨S50000x256, .f32⟩
  | .hbm, ⟨79, _⟩ => ⟨S400000x1, .i32⟩
  | .hbm, ⟨80, _⟩ => ⟨S50000x256, .f32⟩
  | .hbm, ⟨81, _⟩ => ⟨S_, .f32⟩
  | .hbm, ⟨82, _⟩ => ⟨S400000, .f32⟩
  | .hbm, ⟨83, _⟩ => ⟨S_, .f32⟩
  | .hbm, ⟨84, _⟩ => ⟨S50000, .f32⟩
  | .hbm, ⟨85, _⟩ => ⟨S400000x1, .i32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x256, .f32⟩
  | .hbm, ⟨92, _⟩ => ⟨S50000x256, .f32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S50000x256, .f32⟩
  | .hbm, ⟨101, _⟩ => ⟨S50000x256, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S50000x128, .f32⟩
  | .hbm, ⟨108, _⟩ => ⟨S50000x128, .f32⟩
  | .hbm, ⟨109, _⟩ => ⟨S50000x12, .f32⟩
  | .hbm, ⟨110, _⟩ => ⟨S1x12, .f32⟩
  | .hbm, ⟨111, _⟩ => ⟨S50000x12, .f32⟩
  | .hbm, ⟨112, _⟩ => ⟨S50000x12, .f32⟩
  | _, _ => ⟨S50000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_cst : Ref sig .tc := ⟨.hbm, 31, rfl⟩
abbrev main_call1_v0 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_cst : Ref sig .tc := ⟨.hbm, 65, rfl⟩
abbrev main_call2_v0 : Ref sig .tc := ⟨.hbm, 66, rfl⟩
abbrev main_v39 : Ref sig .tc := ⟨.hbm, 67, rfl⟩
abbrev main_c_4 : Ref sig .tc := ⟨.hbm, 68, rfl⟩
abbrev main_v40 : Ref sig .tc := ⟨.hbm, 69, rfl⟩
abbrev main_v41 : Ref sig .tc := ⟨.hbm, 70, rfl⟩
abbrev main_c_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_6 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_7 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call3_cst : Ref sig .tc := ⟨.hbm, 99, rfl⟩
abbrev main_call3_v0 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call4_cst : Ref sig .tc := ⟨.hbm, 106, rfl⟩
abbrev main_call4_v0 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S12_S1x12_1 : S12.BroadcastsInDim S1x12 (![1] : Fin 1 → Fin S1x12.rank)
  bcast_S1x12_S50000x12_0_1 : S1x12.BroadcastsInDim S50000x12 (![0, 1] : Fin 2 → Fin S50000x12.rank)
  dot_S50000x24_S24x128_S50000x128_1_0_0_1_n_n_wf : DotDims.WF S50000x24 S24x128 S50000x128 [1] [0] [0] [1] [] []
  dot_S50000x128_S128x256_S50000x256_1_0_0_1_n_n_wf : DotDims.WF S50000x128 S128x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x12_S50000x12_1_0_0_1_n_n_wf : DotDims.WF S50000x128 S128x12 S50000x12 [1] [0] [0] [1] [] []

variable [Facts₀]

def dot_S50000x24_S24x128_S50000x128_1_0_0_1_n_n : DotDims S50000x24 S24x128 S50000x128 where
  lhsContracting := [1]
  rhsContracting := [0]
  lhsNonContracting := [0]
  rhsNonContracting := [1]
  lhsBatch := []
  rhsBatch := []
  wf := dot_S50000x24_S24x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x12_S50000x12_1_0_0_1_n_n : DotDims S50000x128 S128x12 S50000x12 where
  lhsContracting := [1]
  rhsContracting := [0]
  lhsNonContracting := [0]
  rhsNonContracting := [1]
  lhsBatch := []
  rhsBatch := []
  wf := dot_S50000x128_S128x12_S50000x12_1_0_0_1_n_n_wf

class Facts : Prop extends Facts₀ where

variable [Facts]
-- ==== Proof.KernelRun.lean ====
/-
  The kernel program's run with its result array named: every weakly fair execution terminates with the result
  buffer holding what the last region's write-backs leave in it, and the argument arrays as launched.
-/
import proofs.«131142_j50843822850084_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- Every weakly fair execution terminates, nothing faulting, with the result array at the last boundary's contents
    and every argument array as launched: the launch over the segments, the last thread state (every unscoped buffer
    at the last boundary's contents) read against the final state; the result buffer and the arguments are unscoped
    buffers, and an argument's contents at the last boundary are the launch memory's. -/
theorem run_value : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.RunValue

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«131142_j50843822850084_2_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«131142_j50843822850084_2_alg».proof.Proof.LibMatmulPlain
import proofs.«131142_j50843822850084_2_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibMeanConv.lean ====
/-
  The layers of the network as index formulas on the extended reals, for any extents.

  For a node-feature matrix x [n, a]:
    enc      two dense layers, each followed by the rectifier:        max (max (x·w1 + b1, 0)·w2 + b2, 0);
    conv     one graph convolution on an already averaged neighbourhood mean [n, a]:
                                                                     max ((mean·wl + bl) + x·wr, 0);
    readout  a rectified dense layer followed by a plain one:         max (h·w1 + b1, 0)·w2 + b2.
  The neighbourhood mean is the summed neighbour features s [n, a] divided row by row by a divisor d [n]
  (divRow), or multiplied row by row by a column inv [n, 1] of reciprocals (scaleCol). Row p of each result
  depends on row p of the row-indexed operands only, so a block of consecutive rows of the result is the same
  formula of the same rows of the operands (the _rows lemmas).

  The one law of arithmetic: on the extended reals a quotient s / d by a divisor d ≠ 0 is s · d⁻¹, with the
  inverse of either infinity being 0; so s · (1 / d) = s · (1 · d⁻¹) = s / d for EVERY extended real s — no
  entry need be finite. The divisor here is max (count, 1) ≥ 1, never 0.
-/
import proofs.«131142_j50843822850084_2_alg».proof.Proof.LibDenseLayers

noncomputable section

namespace Cert.Net

open Idealize.ShloMosaic Idealize.ShloMosaic.ValueIdx Cert.LibMatmulPlain Cert.Layers

variable {n n' a b c : Nat}

/-- The one row of a [1, b] matrix, as a vector. -/
def rowOf (r : Mat 1 b) : Row b := fun i => r (ix2 (0 : Fin 1) (i 0))

/-- Two dense layers, each rectified. -/
def enc (x : Mat n a) (w1 : Mat a b) (b1 : Row b) (w2 : Mat b c) (b2 : Row c) : Mat n c :=
  rect (dense (rect (dense x w1 b1)) w2 b2)

/-- Every row of s multiplied by that row's entry of the column inv. -/
def scaleCol (s : Mat n a) (inv : Mat n 1) : Mat n a := fun i => s i * inv (ix2 (i 0) (0 : Fin 1))

/-- Every row of s divided by that row's entry of the vector d. -/
def divRow (s : Mat n a) (d : Row n) : Mat n a := fun i => Ideal.div (s i) (d (ix1 (i 0)))

/-- One graph convolution on the neighbourhood mean: (mean · wl + bl) + x · wr, rectified. -/
def conv (mean x : Mat n a) (wl : Mat a b) (bl : Row b) (wr : Mat a b) : Mat n b :=
  rect fun i => dense mean wl bl i + mm x wr i

/-- A rectified dense layer followed by a plain dense layer. -/
def readout (h : Mat n a) (w1 : Mat a b) (b1 : Row b) (w2 : Mat b c) (b2 : Row c) : Mat n c :=
  dense (rect (dense h w1 b1)) w2 b2

/-! ## Each row of a result depends on that row of the operands -/

theorem rect_congr {s s' : Shape} (f : s.Idx → EReal) (g : s'.Idx → EReal) (i : s.Idx) (j : s'.Idx)
    (h : f i = g j) : rect f i = rect g j :=
  congrArg (max · (Ideal.ofBits .f32 0x00000000#32)) h

theorem mm_rows (x : Mat n a) (x' : Mat n' a) (w : Mat a b) (p' : Fin n') (p : Fin n)
    (hx : ∀ j, x' (ix2 p' j) = x (ix2 p j)) (q : Fin b) : mm x' w (ix2 p' q) = mm x w (ix2 p q) := by
  rw [mm_apply, mm_apply]
  simp only [hx]

theorem dense_rows (x : Mat n a) (x' : Mat n' a) (w : Mat a b) (bb : Row b) (p' : Fin n') (p : Fin n)
    (hx : ∀ j, x' (ix2 p' j) = x (ix2 p j)) (q : Fin b) :
    dense x' w bb (ix2 p' q) = dense x w bb (ix2 p q) := by
  show mm x' w (ix2 p' q) + bias n' bb (ix2 p' q) = mm x w (ix2 p q) + bias n bb (ix2 p q)
  rw [mm_rows x x' w p' p hx q]
  rfl

theorem enc_rows (x : Mat n a) (x' : Mat n' a) (w1 : Mat a b) (b1 : Row b) (w2 : Mat b c) (b2 : Row c)
    (p' : Fin n') (p : Fin n) (hx : ∀ j, x' (ix2 p' j) = x (ix2 p j)) (q : Fin c) :
    enc x' w1 b1 w2 b2 (ix2 p' q) = enc x w1 b1 w2 b2 (ix2 p q) := by
  unfold enc
  exact rect_congr _ _ _ _
    (dense_rows _ _ w2 b2 p' p (fun k => rect_congr _ _ _ _ (dense_rows x x' w1 b1 p' p hx k)) q)

theorem scaleCol_rows (s : Mat n a) (s' : Mat n' a) (inv : Mat n 1) (inv' : Mat n' 1) (p' : Fin n') (p : Fin n)
    (hs : ∀ j, s' (ix2 p' j) = s (ix2 p j)) (hi : inv' (ix2 p' (0 : Fin 1)) = inv (ix2 p (0 : Fin 1)))
    (j : Fin a) : scaleCol s' inv' (ix2 p' j) = scaleCol s inv (ix2 p j) := by
  show s' (ix2 p' j) * inv' (ix2 p' (0 : Fin 1)) = s (ix2 p j) * inv (ix2 p (0 : Fin 1))
  rw [hs, hi]

theorem conv_rows (mean x : Mat n a) (mean' x' : Mat n' a) (wl : Mat a b) (bl : Row b) (wr : Mat a b)
    (p' : Fin n') (p : Fin n) (hm : ∀ j, mean' (ix2 p' j) = mean (ix2 p j))
    (hx : ∀ j, x' (ix2 p' j) = x (ix2 p j)) (q : Fin b) :
    conv mean' x' wl bl wr (ix2 p' q) = conv mean x wl bl wr (ix2 p q) := by
  unfold conv
  refine rect_congr _ _ _ _ ?_
  show dense mean' wl bl (ix2 p' q) + mm x' wr (ix2 p' q) = dense mean wl bl (ix2 p q) + mm x wr (ix2 p q)
  rw [dense_rows mean mean' wl bl p' p hm q, mm_rows x x' wr p' p hx q]

theorem readout_rows (h : Mat n a) (h' : Mat n' a) (w1 : Mat a b) (b1 : Row b) (w2 : Mat b c) (b2 : Row c)
    (p' : Fin n') (p : Fin n) (hh : ∀ j, h' (ix2 p' j) = h (ix2 p j)) (q : Fin c) :
    readout h' w1 b1 w2 b2 (ix2 p' q) = readout h w1 b1 w2 b2 (ix2 p q) := by
  unfold readout
  exact dense_rows _ _ w2 b2 p' p (fun k => rect_congr _ _ _ _ (dense_rows h h' w1 b1 p' p hh k)) q

/-! ## The product with a reciprocal is the quotient -/

/-- The pattern of 1.0 denotes 1. -/
theorem ofBits_one : Ideal.ofBits .f32 0x3F800000#32 = 1 := by
  simp [Ideal.ofBits, Ideal.ieee, -EReal.coe_mul]; norm_num

/-- s · (1 / d) = s / d for a divisor d ≠ 0, at every extended real s. -/
theorem mul_recip (s u d : EReal) (hu : u = 1) (hd : d ≠ 0) : s * Ideal.div u d = Ideal.div s d := by
  subst hu
  unfold Ideal.div
  rw [if_neg hd, if_neg hd, one_mul]

/-- The larger of anything and 1 is not 0. -/
theorem max_one_ne_zero (x u : EReal) (hu : u = 1) : max x u ≠ 0 := by
  subst hu
  exact ne_of_gt (lt_of_lt_of_le zero_lt_one (le_max_right x 1))

/-- Scaling the rows by the reciprocals of nonzero divisors is dividing the rows by the divisors. -/
theorem scaleCol_eq_divRow (s : Mat n a) (inv : Mat n 1) (d : Row n) (u : EReal) (hu : u = 1)
    (hd : ∀ p, d (ix1 p) ≠ 0) (hinv : ∀ p, inv (ix2 p (0 : Fin 1)) = Ideal.div u (d (ix1 p))) :
    scaleCol s inv = divRow s d := by
  funext i
  obtain ⟨p, q, rfl⟩ : ∃ (p : Fin n) (q : Fin a), i = ix2 p q := ⟨i 0, i 1, eq_ix2 i⟩
  show s (ix2 p q) * inv (ix2 p (0 : Fin 1)) = Ideal.div (s (ix2 p q)) (d (ix1 p))
  rw [hinv p, mul_recip _ _ _ hu (hd p)]

end Cert.Net

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibTileRows.lean ====
/-
  The vector program's spellings of the layers' pieces, on the extended reals, for any extents.

  A bias that reaches the body as a [1, n] block is cast to its own shape (the identity) and repeated down the m rows:
  entry (p, q) is the block's entry (0, q). A column [m, 1] of per-row factors is cast to its own shape and repeated
  across the n columns, and multiplies an [m, n] block entry by entry: entry (p, q) is s(p, q) times the column's
  row p. A product on the matrix unit into a zero accumulator, the weight cast to a narrower float format first (the
  identity on the extended reals), plus such a bias is one dense layer.
-/
import proofs.«131142_j50843822850084_2_alg».proof.Proof.LibMeanConv
import proofs.«131142_j50843822850084_2_alg».proof.Proof.LibKeepdims
import Idealize.ShloMosaic.Lib.ValueLayout
import Idealize.ShloMosaic.Lib.Pipeline.Value

noncomputable section

namespace Cert.Net

open Idealize.ShloMosaic Idealize.ShloMosaic.ValueIdx Cert.LibMatmulPlain Cert.Layers

variable {m k n : Nat}

/-- A [1, n] bias block, cast to its own shape and repeated down m rows. -/
theorem tileBiasRow_eq (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ r hc) hb = bias m (rowOf r) := by
  rw [shapeCast_self]
  funext i
  obtain ⟨p, q, rfl⟩ : ∃ (p : Fin m) (q : Fin n), i = ix2 p q := ⟨i 0, i 1, eq_ix2 i⟩
  exact broadcastTo_1b_ab_apply r hb p q

/-- An [m, n] block (cast to its own shape) times an [m, 1] column (cast to its own shape) repeated across the columns. -/
theorem tileScaleCol_eq (s : FVec Ideal ⟨2, ![m, n]⟩ .f32) (inv : FVec Ideal ⟨2, ![m, 1]⟩ .f32)
    (hs : (⟨2, ![m, n]⟩ : Shape).ShapeCasts ⟨2, ![m, n]⟩) (hc : (⟨2, ![m, 1]⟩ : Shape).ShapeCasts ⟨2, ![m, 1]⟩)
    (hb : (⟨2, ![m, 1]⟩ : Shape).Broadcasts ⟨2, ![m, n]⟩) :
    mulf (shapeCast ⟨2, ![m, n]⟩ s hs) (broadcastTo ⟨2, ![m, n]⟩ (shapeCast ⟨2, ![m, 1]⟩ inv hc) hb) = scaleCol s inv := by
  rw [shapeCast_self, shapeCast_self]
  funext i
  obtain ⟨p, q, rfl⟩ : ∃ (p : Fin m) (q : Fin n), i = ix2 p q := ⟨i 0, i 1, eq_ix2 i⟩
  show s (ix2 p q) * broadcastTo ⟨2, ![m, n]⟩ inv hb (ix2 p q) = s (ix2 p q) * inv (ix2 p (0 : Fin 1))
  rw [Cert.Lib.Keepdims.bcastCol_apply inv hb p q]

/-- One dense layer as the vector program spells it: the product into a zero accumulator, the weight cast to a
    narrower format first, plus the [1, n] bias block repeated down the rows. -/
theorem tileDenseRow_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits)
    (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    addf (matmul d none a (truncf ψ w hψ) (constant ⟨2, ![m, n]⟩ .f32 0x00000000#32))
        (broadcastTo ⟨2, ![m, n]⟩ (shapeCast ⟨2, ![1, n]⟩ r hc) hb)
      = dense a w (rowOf r) := by
  rw [tileMm_eq d wf hd a w hψ, tileBiasRow_eq r hc hb]
  rfl

end Cert.Net

end
-- ==== Proof.Region0.lean ====
/-
  Region 0 (the encoder), for any contents V of the buffers when the region is entered: the output array after the region is the encoder of the whole input arrays.
-/
import proofs.«131142_j50843822850084_2_alg».proof.Proof.Gen.KernelIdeal.Frame
import proofs.«131142_j50843822850084_2_alg».proof.Proof.LibMeanConv
import proofs.«131142_j50843822850084_2_alg».proof.Proof.LibTileRows
import proofs.«131142_j50843822850084_2_alg».proof.Proof.LibKeepdims
import Idealize.ShloMosaic.Lib.Pipeline.Value
import Idealize.ShloMosaic.Lib.ValueLayout
import Idealize.ShloMosaic.Lib.ValueIdx

set_option maxRecDepth 16384

noncomputable section

namespace Cert.KernelIdeal.Closed0

open Idealize.ShloMosaic Idealize.ShloMosaic.TcCoe Idealize.ShloMosaic.ValueIdx Idealize.SL.Sem
open Cert.KernelIdeal Cert.KernelIdeal.Gen Cert.LibMatmulPlain Cert.Layers Cert.Net
open Idealize.ShloMosaic.Pipeline (Dat Cfg Window)

variable (V : (c : Dev nD) → (b : Ref sig .tc) → Buf (Elt Ideal) ((c : Thread nD τ).loc b))

/-- A literal pair of offsets is the zero offset. -/
theorem hz : (![0, 0] : Fin 2 → Nat) = fun _ => 0 := funext fun a => by fin_cases a <;> rfl

/-- The body's one payload, of its five loaded blocks: the two rectified dense layers of the block of rows. -/
theorem pay0_eq (x0 : Vec Ideal S2000x24 .f32) (x1 : Vec Ideal S24x128 .f32) (x2 : Vec Ideal S1x128 .f32)
    (x3 : Vec Ideal S128x256 .f32) (x4 : Vec Ideal S1x256 .f32) :
    k0_pay1 (F := Ideal) x0 x1 x2 x3 x4 = enc x0 x1 (rowOf x2) x3 (rowOf x4) := by
  unfold k0_pay1
  dsimp only
  rw [tileDenseRow_eq dot_S2000x24_S24x128_S2000x128_1_0_0_1_n_n dot_S2000x24_S24x128_S2000x128_1_0_0_1_n_n.wf rfl,
    tileRect_eq,
    tileDenseRow_eq dot_S2000x128_S128x256_S2000x256_1_0_0_1_n_n dot_S2000x128_S128x256_S2000x256_1_0_0_1_n_n.wf rfl,
    tileRect_eq]
  rfl

/-- The printed index maps, decided over the grid of 25 points: the node-feature window moves with the output window
    down the rows; the weights' and biases' windows stay on their one block; the output's row block is at most 24. -/
theorem idx_facts0 : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every one of the 25 row blocks is some point's. -/
theorem idx_onto0 : ∀ q0 : Fin 25, ∃ t : Fin cfg0.N, win0_5.index t = ![q0.val, 0] :=
  (by decide +kernel : ∀ q0 : Fin 25, ∃ t : Fin grid0.N, win0_5.index t = ![q0.val, 0])

/-- The array row that row r of point t's block is. -/
def rowAt0 (t : Fin cfg0.N) (r : Fin 2000) : Fin 50000 :=
  ⟨win0_5.index t (0 : Fin 2) * 2000 + r.val, by
    have h := (idx_facts0 t).2.2.2.2.2.2.2.2.2.2.1
    have hr := r.isLt
    omega⟩

/-- The node-feature window's block at point t, read at (r, j), is the array at (block·2000 + r, j). -/
theorem blk0_0 (c : Dev nD) (t : Fin cfg0.N) (r : Fin 2000) (j : Fin 24) :
    iblk0 V c 0 t (ix2 r j) = (V c main_arg0 : S50000x24.Idx → EReal) (ix2 (rowAt0 t r) j) := by
  obtain ⟨e0, e1, -⟩ := idx_facts0 t
  show (V c main_arg0 : S50000x24.Idx → EReal) (((cfg0.win 0).blk t).view.emb (ix2 r j)) = _
  refine congrArg _ (funext fun a => Fin.ext ?_)
  match a with
  | ⟨0, _⟩ => show win0_0.index t (0 : Fin 2) * 2000 + 1 * r.val = win0_5.index t (0 : Fin 2) * 2000 + r.val; omega
  | ⟨1, _⟩ => show win0_0.index t (1 : Fin 2) * 24 + 1 * j.val = j.val; omega

/-- The first weight's window holds the whole array at every point. -/
theorem blk0_1 (c : Dev nD) (t : Fin cfg0.N) : iblk0 V c 1 t = (V c main_arg2 : S24x128.Idx → EReal) := by
  obtain ⟨-, -, e0, e1, -⟩ := idx_facts0 t
  funext y
  show (V c main_arg2 : S24x128.Idx → EReal) (((cfg0.win 1).blk t).view.emb y) = _
  refine congrArg _ (funext fun a => Fin.ext ?_)
  match a with
  | ⟨0, _⟩ => show win0_1.index t (0 : Fin 2) * 24 + 1 * (y 0).val = (y 0).val; omega
  | ⟨1, _⟩ => show win0_1.index t (1 : Fin 2) * 128 + 1 * (y 1).val = (y 1).val; omega

/-- The first bias row's window holds the whole array at every point. -/
theorem blk0_2 (c : Dev nD) (t : Fin cfg0.N) : iblk0 V c 2 t = (V c main_v13 : S1x128.Idx → EReal) := by
  obtain ⟨-, -, -, -, e0, e1, -⟩ := idx_facts0 t
  funext y
  show (V c main_v13 : S1x128.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight's window holds the whole array at every point. -/
theorem blk0_3 (c : Dev nD) (t : Fin cfg0.N) : iblk0 V c 3 t = (V c main_arg4 : S128x256.Idx → EReal) := by
  obtain ⟨-, -, -, -, -, -, e0, e1, -⟩ := idx_facts0 t
  funext y
  show (V c main_arg4 : S128x256.Idx → EReal) (((cfg0.win 3).blk t).view.emb y) = _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- The second bias row's window holds the whole array at every point. -/
theorem blk0_4 (c : Dev nD) (t : Fin cfg0.N) : iblk0 V c 4 t = (V c main_v14 : S1x256.Idx → EReal) := by
  obtain ⟨-, -, -, -, -, -, -, -, e0, e1, -⟩ := idx_facts0 t
  funext y
  show (V c main_v14 : S1x256.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The encoder of the whole arrays the region finds. -/
abbrev G0 (c : Dev nD) : S50000x256.Idx → EReal :=
  enc (V c main_arg0 : S50000x24.Idx → EReal) (V c main_arg2 : S24x128.Idx → EReal)
    (rowOf (V c main_v13 : S1x128.Idx → EReal)) (V c main_arg4 : S128x256.Idx → EReal)
    (rowOf (V c main_v14 : S1x256.Idx → EReal))

/-- What point t writes back is block t of the encoder of the whole arrays: row r of the block is the encoder's row
    block·2000 + r, which depends on that one row of the node features. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x24) hz, View.ld_unit_zero (S := S24x128) hz, View.ld_unit_zero (S := S1x128) hz,
    View.ld_unit_zero (S := S128x256) hz, View.ld_unit_zero (S := S1x256) hz]
  rw [pay0_eq (iblk0 V c 0 t) (iblk0 V c 1 t) (iblk0 V c 2 t) (iblk0 V c 3 t) (iblk0 V c 4 t),
    blk0_1 V c t, blk0_2 V c t, blk0_3 V c t, blk0_4 V c t]
  obtain ⟨-, -, -, -, -, -, -, -, -, -, -, e1⟩ := idx_facts0 t
  funext y
  obtain ⟨r, q, rfl⟩ : ∃ (r : Fin 2000) (q : Fin 256), y = ix2 r q := ⟨y 0, y 1, eq_ix2 y⟩
  have hemb : ((cfg0.win 5).blk t).view.emb (ix2 r q) = ix2 (rowAt0 t r) q := by
    funext a
    apply Fin.ext
    match a with
    | ⟨0, _⟩ => show win0_5.index t (0 : Fin 2) * 2000 + 1 * r.val = win0_5.index t (0 : Fin 2) * 2000 + r.val; omega
    | ⟨1, _⟩ => show win0_5.index t (1 : Fin 2) * 256 + 1 * q.val = q.val; omega
  show enc (iblk0 V c 0 t) _ _ _ _ (ix2 r q) = G0 V c (((cfg0.win 5).blk t).view.emb (ix2 r q))
  rw [hemb]
  exact enc_rows _ _ _ _ _ _ r (rowAt0 t r) (fun j => blk0_0 V c t r j) q

/-- An index of the array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v15).slice (win0_5.rect t)).set ↔ _
  rw [View.set_slice_whole, Rect.mem_set_unit]
  exact Iff.rfl

/-- The 25 blocks of 2000 rows cover the array: row i is in block i / 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The encoder's output array after the region: the two rectified dense layers of the whole node-feature array. -/
theorem final0 (c : Dev nD) :
    (dat0 V c).arrAt 5 cfg0.N
      = (enc (V c main_arg0 : S50000x24.Idx → EReal) (V c main_arg2 : S24x128.Idx → EReal)
          (rowOf (V c main_v13 : S1x128.Idx → EReal)) (V c main_arg4 : S128x256.Idx → EReal)
          (rowOf (V c main_v14 : S1x256.Idx → EReal)) : S50000x256.Idx → EReal) :=
  (dat0 V c).arrAt_eq_of_cover 5 (G0 V c) (fun t _ => flushed0_eq V c t) cover0

end Cert.KernelIdeal.Closed0

end
-- ==== Proof.Region1.lean ====
/-
  Region 1 (the first graph convolution), for any contents V of the buffers when the region is entered: the output array after the region is the convolution of the whole input arrays.
-/
import proofs.«131142_j50843822850084_2_alg».proof.Proof.Gen.KernelIdeal.Frame
import proofs.«131142_j50843822850084_2_alg».proof.Proof.LibMeanConv
import proofs.«131142_j50843822850084_2_alg».proof.Proof.LibTileRows
import proofs.«131142_j50843822850084_2_alg».proof.Proof.LibKeepdims
import Idealize.ShloMosaic.Lib.Pipeline.Value
import Idealize.ShloMosaic.Lib.ValueLayout
import Idealize.ShloMosaic.Lib.ValueIdx

set_option maxRecDepth 16384

noncomputable section

namespace Cert.KernelIdeal.Closed1

open Idealize.ShloMosaic Idealize.ShloMosaic.TcCoe Idealize.ShloMosaic.ValueIdx Idealize.SL.Sem
open Cert.KernelIdeal Cert.KernelIdeal.Gen Cert.LibMatmulPlain Cert.Layers Cert.Net
open Idealize.ShloMosaic.Pipeline (Dat Cfg Window)

variable (V : (c : Dev nD) → (b : Ref sig .tc) → Buf (Elt Ideal) ((c : Thread nD τ).loc b))

/-- A literal pair of zero offsets is the zero offset. -/
theorem hzero1 : (![0, 0] : Fin 2 → Nat) = fun _ => 0 := funext fun a => by fin_cases a <;> rfl

/-- The body's one payload, of its six loaded blocks: the convolution of the block of rows, whose neighbourhood mean is
    the block of summed neighbour features with every row multiplied by that row's entry of the column of reciprocals.
    The casts to a narrower float format are the identity on the extended reals. -/
theorem pay1_eq (x0 : FVec Ideal S2000x256 .f32) (x1 : FVec Ideal S2000x1 .f32) (x3 : FVec Ideal S256x256 .f32)
    (x4 : FVec Ideal S1x256 .f32) (x2 : FVec Ideal S2000x256 .bf16) (x5 : FVec Ideal S256x256 .f32) :
    k1_pay1 (F := Ideal) x0 x1 x3 x4 x2 x5 = conv (scaleCol x0 x1) x2 x3 (rowOf x4) x5 := by
  unfold k1_pay1
  dsimp only
  rw [tileScaleCol_eq x0 x1 shapeCasts_S2000x256_S2000x256 shapeCasts_S2000x1_S2000x1 broadcasts_S2000x1_S2000x256,
    tileDenseRow_eq dot_S2000x256_S256x256_S2000x256_1_0_0_1_n_n dot_S2000x256_S256x256_S2000x256_1_0_0_1_n_n.wf rfl
      _ x3 bitsLt_bf16_f32 x4 shapeCasts_S1x256_S1x256 broadcasts_S1x256_S2000x256,
    tileMm_eq dot_S2000x256_S256x256_S2000x256_1_0_0_1_n_n dot_S2000x256_S256x256_S2000x256_1_0_0_1_n_n.wf rfl
      _ x5 bitsLt_bf16_f32,
    shapeCast_self]
  rfl

/-- The printed index maps, decided over the grid of 25 points: the summed-neighbour window, the reciprocal column's
    window and the node-feature window move with the output window down the rows; the weights' and the bias row's
    windows stay on their one block; the output's row block is at most 24. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 24 ∧ win1_6.index t (1 : Fin 2) = 0 :=
  (by decide +kernel : ∀ t : Fin grid1.N, _)

/-- Every one of the 25 row blocks is some point's. -/
theorem idx_onto1 : ∀ q0 : Fin 25, ∃ t : Fin cfg1.N, win1_6.index t = ![q0.val, 0] :=
  (by decide +kernel : ∀ q0 : Fin 25, ∃ t : Fin grid1.N, win1_6.index t = ![q0.val, 0])

/-- The array row that row r of point t's block is. -/
def rowAt1 (t : Fin cfg1.N) (r : Fin 2000) : Fin 50000 :=
  ⟨win1_6.index t (0 : Fin 2) * 2000 + r.val, by
    have h := (idx_facts1 t).2.2.2.2.2.2.2.2.2.2.2.2.1
    have hr := r.isLt
    omega⟩

/-- The summed-neighbour window's block at point t, read at (r, j), is the array at (block·2000 + r, j). -/
theorem blk1_0 (c : Dev nD) (t : Fin cfg1.N) (r : Fin 2000) (j : Fin 256) :
    iblk1 V c 0 t (ix2 r j) = (V c main_v26 : S50000x256.Idx → EReal) (ix2 (rowAt1 t r) j) := by
  obtain ⟨e0, e1, -⟩ := idx_facts1 t
  show (V c main_v26 : S50000x256.Idx → EReal) (((cfg1.win 0).blk t).view.emb (ix2 r j)) = _
  refine congrArg _ (funext fun a => Fin.ext ?_)
  match a with
  | ⟨0, _⟩ => show win1_0.index t (0 : Fin 2) * 2000 + 1 * r.val = win1_6.index t (0 : Fin 2) * 2000 + r.val; omega
  | ⟨1, _⟩ => show win1_0.index t (1 : Fin 2) * 256 + 1 * j.val = j.val; omega

/-- The reciprocal column's window's block at point t, read at (r, 0), is the array at (block·2000 + r, 0). -/
theorem blk1_1 (c : Dev nD) (t : Fin cfg1.N) (r : Fin 2000) :
    iblk1 V c 1 t (ix2 r (0 : Fin 1)) = (V c main_v12 : S50000x1.Idx → EReal) (ix2 (rowAt1 t r) (0 : Fin 1)) := by
  obtain ⟨-, -, e0, e1, -⟩ := idx_facts1 t
  show (V c main_v12 : S50000x1.Idx → EReal) (((cfg1.win 1).blk t).view.emb (ix2 r (0 : Fin 1))) = _
  refine congrArg _ (funext fun a => Fin.ext ?_)
  match a with
  | ⟨0, _⟩ => show win1_1.index t (0 : Fin 2) * 2000 + 1 * r.val = win1_6.index t (0 : Fin 2) * 2000 + r.val; omega
  | ⟨1, _⟩ => show win1_1.index t (1 : Fin 2) * 1 + 1 * 0 = 0; omega

/-- The node-feature window's block at point t, read at (r, j), is the array at (block·2000 + r, j). -/
theorem blk1_2 (c : Dev nD) (t : Fin cfg1.N) (r : Fin 2000) (j : Fin 256) :
    iblk1 V c 2 t (ix2 r j) = (V c main_v15 : S50000x256.Idx → EReal) (ix2 (rowAt1 t r) j) := by
  obtain ⟨-, -, -, -, e0, e1, -⟩ := idx_facts1 t
  show (V c main_v15 : S50000x256.Idx → EReal) (((cfg1.win 2).blk t).view.emb (ix2 r j)) = _
  refine congrArg _ (funext fun a => Fin.ext ?_)
  match a with
  | ⟨0, _⟩ => show win1_2.index t (0 : Fin 2) * 2000 + 1 * r.val = win1_6.index t (0 : Fin 2) * 2000 + r.val; omega
  | ⟨1, _⟩ => show win1_2.index t (1 : Fin 2) * 256 + 1 * j.val = j.val; omega

/-- The neighbour weight's window holds the whole array at every point. -/
theorem blk1_3 (c : Dev nD) (t : Fin cfg1.N) : iblk1 V c 3 t = (V c main_arg6 : S256x256.Idx → EReal) := by
  obtain ⟨-, -, -, -, -, -, e0, e1, -⟩ := idx_facts1 t
  funext y
  show (V c main_arg6 : S256x256.Idx → EReal) (((cfg1.win 3).blk t).view.emb y) = _
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The bias row's window holds the whole array at every point. -/
theorem blk1_4 (c : Dev nD) (t : Fin cfg1.N) : iblk1 V c 4 t = (V c main_v27 : S1x256.Idx → EReal) := by
  obtain ⟨-, -, -, -, -, -, -, -, e0, e1, -⟩ := idx_facts1 t
  funext y
  show (V c main_v27 : S1x256.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- The node's own weight's window holds the whole array at every point. -/
theorem blk1_5 (c : Dev nD) (t : Fin cfg1.N) : iblk1 V c 5 t = (V c main_arg8 : S256x256.Idx → EReal) := by
  obtain ⟨-, -, -, -, -, -, -, -, -, -, e0, e1, -⟩ := idx_facts1 t
  funext y
  show (V c main_arg8 : S256x256.Idx → EReal) (((cfg1.win 5).blk t).view.emb y) = _
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

/-- The convolution of the whole arrays the region finds. -/
abbrev G1 (c : Dev nD) : S50000x256.Idx → EReal :=
  conv (scaleCol (V c main_v26 : S50000x256.Idx → EReal) (V c main_v12 : S50000x1.Idx → EReal))
    (V c main_v15 : S50000x256.Idx → EReal) (V c main_arg6 : S256x256.Idx → EReal)
    (rowOf (V c main_v27 : S1x256.Idx → EReal)) (V c main_arg8 : S256x256.Idx → EReal)

/-- What point t writes back is block t of the convolution of the whole arrays: row r of the block is the convolution's
    row block·2000 + r, which depends on that one row of the summed neighbour features, of the reciprocal column and of
    the node features. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hzero1]
  simp only [View.ld_unit_zero (S := S2000x256) hzero1, View.ld_unit_zero (S := S2000x1) hzero1,
    View.ld_unit_zero (S := S256x256) hzero1, View.ld_unit_zero (S := S1x256) hzero1]
  rw [pay1_eq (iblk1 V c 0 t) (iblk1 V c 1 t) (iblk1 V c 3 t) (iblk1 V c 4 t) (iblk1 V c 2 t) (iblk1 V c 5 t),
    blk1_3 V c t, blk1_4 V c t, blk1_5 V c t]
  obtain ⟨-, -, -, -, -, -, -, -, -, -, -, -, -, e1⟩ := idx_facts1 t
  funext y
  obtain ⟨r, q, rfl⟩ : ∃ (r : Fin 2000) (q : Fin 256), y = ix2 r q := ⟨y 0, y 1, eq_ix2 y⟩
  have hemb : ((cfg1.win 6).blk t).view.emb (ix2 r q) = ix2 (rowAt1 t r) q := by
    funext a
    apply Fin.ext
    match a with
    | ⟨0, _⟩ => show win1_6.index t (0 : Fin 2) * 2000 + 1 * r.val = win1_6.index t (0 : Fin 2) * 2000 + r.val; omega
    | ⟨1, _⟩ => show win1_6.index t (1 : Fin 2) * 256 + 1 * q.val = q.val; omega
  show conv (scaleCol (iblk1 V c 0 t) (iblk1 V c 1 t)) (iblk1 V c 2 t) _ _ _ (ix2 r q)
    = G1 V c (((cfg1.win 6).blk t).view.emb (ix2 r q))
  rw [hemb]
  exact conv_rows _ _ _ _ _ _ _ r (rowAt1 t r)
    (fun j => scaleCol_rows _ _ _ _ r (rowAt1 t r) (fun k => blk1_0 V c t r k) (blk1_1 V c t r) j)
    (fun j => blk1_2 V c t r j) q

/-- An index of the array is in point t's block iff each coordinate is in the block's range on its axis. -/
theorem mem_blk1 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v28).slice (win1_6.rect t)).set ↔ _
  rw [View.set_slice_whole, Rect.mem_set_unit]
  exact Iff.rfl

/-- The 25 blocks of 2000 rows cover the array: row i is in block i / 2000. -/
theorem cover1 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The first convolution's output array after the region. -/
theorem final1 (c : Dev nD) :
    (dat1 V c).arrAt 6 cfg1.N
      = (conv (scaleCol (V c main_v26 : S50000x256.Idx → EReal) (V c main_v12 : S50000x1.Idx → EReal))
          (V c main_v15 : S50000x256.Idx → EReal) (V c main_arg6 : S256x256.Idx → EReal)
          (rowOf (V c main_v27 : S1x256.Idx → EReal)) (V c main_arg8 : S256x256.Idx → EReal) : S50000x256.Idx → EReal) :=
  (dat1 V c).arrAt_eq_of_cover 6 (G1 V c) (fun t _ => flushed1_eq V c t) cover1

end Cert.KernelIdeal.Closed1

end
-- ==== Proof.Region2.lean ====
/-
  Region 2 (the second graph convolution fused with the readout), for any contents V of the buffers when the region is entered: the output array after the region is the readout of the convolution of the whole input arrays.
-/
import proofs.«131142_j50843822850084_2_alg».proof.Proof.Gen.KernelIdeal.Frame
import proofs.«131142_j50843822850084_2_alg».proof.Proof.LibMeanConv
import proofs.«131142_j50843822850084_2_alg».proof.Proof.LibKeepdims
import proofs.«131142_j50843822850084_2_alg».proof.Proof.LibTileRows
import Idealize.ShloMosaic.Lib.Pipeline.Value
import Idealize.ShloMosaic.Lib.ValueLayout
import Idealize.ShloMosaic.Lib.ValueIdx

set_option maxRecDepth 16384

noncomputable section

namespace Cert.KernelIdeal.Closed2

open Idealize.ShloMosaic Idealize.ShloMosaic.TcCoe Idealize.ShloMosaic.ValueIdx Idealize.SL.Sem
open Cert.KernelIdeal Cert.KernelIdeal.Gen Cert.LibMatmulPlain Cert.Layers Cert.Net
open Idealize.ShloMosaic.Pipeline (Dat Cfg Window)

variable (V : (c : Dev nD) → (b : Ref sig .tc) → Buf (Elt Ideal) ((c : Thread nD τ).loc b))

/-- A literal pair of offsets is the zero offset. -/
theorem hz : (![0, 0] : Fin 2 → Nat) = fun _ => 0 := funext fun a => by fin_cases a <;> rfl

/-! ## The body's payloads as whole-block layer formulas -/

/-- The first payload of the body: the rectified first readout layer of the convolution of the blocks. -/
theorem pay_hidden (x0 : FVec Ideal S2000x256 .f32) (x1 : FVec Ideal S2000x1 .f32) (x3 : FVec Ideal S256x256 .f32)
    (x4 : FVec Ideal S1x256 .f32) (x2 : FVec Ideal S2000x256 .bf16) (x5 : FVec Ideal S256x256 .f32)
    (x6 : FVec Ideal S256x128 .f32) (x7 : FVec Ideal S1x128 .f32) :
    k2_pay2 (F := Ideal) x0 x1 x3 x4 x2 x5 x6 x7
      = rect (dense (conv (scaleCol x0 x1) x2 x3 (rowOf x4) x5) x6 (rowOf x7)) := by
  unfold k2_pay2
  dsimp only
  rw [tileScaleCol_eq x0 x1 shapeCasts_S2000x256_S2000x256 shapeCasts_S2000x1_S2000x1 broadcasts_S2000x1_S2000x256,
    tileDenseRow_eq dot_S2000x256_S256x256_S2000x256_1_0_0_1_n_n dot_S2000x256_S256x256_S2000x256_1_0_0_1_n_n.wf rfl
      (truncf FTy.bf16 (scaleCol x0 x1) bitsLt_bf16_f32) x3 bitsLt_bf16_f32 x4 shapeCasts_S1x256_S1x256
      broadcasts_S1x256_S2000x256,
    shapeCast_self,
    tileMm_eq dot_S2000x256_S256x256_S2000x256_1_0_0_1_n_n dot_S2000x256_S256x256_S2000x256_1_0_0_1_n_n.wf rfl
      x2 x5 bitsLt_bf16_f32,
    tileDenseRow_eq dot_S2000x256_S256x128_S2000x128_1_0_0_1_n_n dot_S2000x256_S256x128_S2000x128_1_0_0_1_n_n.wf rfl
      _ x6 bitsLt_bf16_f32 x7 shapeCasts_S1x128_S1x128 broadcasts_S1x128_S2000x128]
  rfl

/-- The second payload: the last weight, cast to a narrower format (the identity on the extended reals). -/
theorem pay_weight (x8 : FVec Ideal S128x12 .f32) :
    k2_pay3 (F := Ideal) x8 = truncf FTy.bf16 x8 bitsLt_bf16_f32 := rfl

/-- The stored payload: the plain last layer of the hidden block. -/
theorem pay_out (h : FVec Ideal S2000x128 .bf16) (x8 : FVec Ideal S128x12 .f32) (x9 : FVec Ideal S1x12 .f32) :
    k2_pay1 (F := Ideal) h (k2_pay3 (F := Ideal) x8) (constant (F := Ideal) S2000x12 .f32 0x00000000#32) x9
      = dense h x8 (rowOf x9) := by
  unfold k2_pay1 k2_pay3
  dsimp only
  exact tileDenseRow_eq dot_S2000x128_S128x12_S2000x12_1_0_0_1_n_n dot_S2000x128_S128x12_S2000x12_1_0_0_1_n_n.wf rfl
    h x8 bitsLt_bf16_f32 x9 shapeCasts_S1x12_S1x12 broadcasts_S1x12_S2000x12

/-- The whole body on blocks: the readout of the convolution of the blocks. -/
theorem pay_body (x0 : FVec Ideal S2000x256 .f32) (x1 : FVec Ideal S2000x1 .f32) (x3 : FVec Ideal S256x256 .f32)
    (x4 : FVec Ideal S1x256 .f32) (x2 : FVec Ideal S2000x256 .bf16) (x5 : FVec Ideal S256x256 .f32)
    (x6 : FVec Ideal S256x128 .f32) (x7 : FVec Ideal S1x128 .f32) (x8 : FVec Ideal S128x12 .f32)
    (x9 : FVec Ideal S1x12 .f32) :
    k2_pay1 (F := Ideal) (k2_pay2 (F := Ideal) x0 x1 x3 x4 x2 x5 x6 x7) (k2_pay3 (F := Ideal) x8)
        (constant (F := Ideal) S2000x12 .f32 0x00000000#32) x9
      = readout (conv (scaleCol x0 x1) x2 x3 (rowOf x4) x5) x6 (rowOf x7) x8 (rowOf x9) := by
  rw [pay_out, pay_hidden]
  rfl

/-! ## The printed index maps, decided over the grid of 25 points -/

/-- The output window's row block is at most 24 and its column block is 0. -/
theorem idx_out : ∀ t : Fin cfg2.N, win2_10.index t (0 : Fin 2) ≤ 24 ∧ win2_10.index t (1 : Fin 2) = 0 :=
  (by decide +kernel : ∀ t : Fin grid2.N, _)

/-- The three row-blocked input windows move with the output window down the rows. -/
theorem idx_rows : ∀ t : Fin cfg2.N,
    win2_0.index t (0 : Fin 2) = win2_10.index t (0 : Fin 2) ∧ win2_0.index t (1 : Fin 2) = 0
    ∧ win2_1.index t (0 : Fin 2) = win2_10.index t (0 : Fin 2) ∧ win2_1.index t (1 : Fin 2) = 0
    ∧ win2_2.index t (0 : Fin 2) = win2_10.index t (0 : Fin 2) ∧ win2_2.index t (1 : Fin 2) = 0 :=
  (by decide +kernel : ∀ t : Fin grid2.N, _)

/-- The weights' and the bias rows' windows stay on their one block. -/
theorem idx_whole3 : ∀ t : Fin cfg2.N, win2_3.index t (0 : Fin 2) = 0 ∧ win2_3.index t (1 : Fin 2) = 0 :=
  (by decide +kernel : ∀ t : Fin grid2.N, _)
theorem idx_whole4 : ∀ t : Fin cfg2.N, win2_4.index t (0 : Fin 2) = 0 ∧ win2_4.index t (1 : Fin 2) = 0 :=
  (by decide +kernel : ∀ t : Fin grid2.N, _)
theorem idx_whole5 : ∀ t : Fin cfg2.N, win2_5.index t (0 : Fin 2) = 0 ∧ win2_5.index t (1 : Fin 2) = 0 :=
  (by decide +kernel : ∀ t : Fin grid2.N, _)
theorem idx_whole6 : ∀ t : Fin cfg2.N, win2_6.index t (0 : Fin 2) = 0 ∧ win2_6.index t (1 : Fin 2) = 0 :=
  (by decide +kernel : ∀ t : Fin grid2.N, _)
theorem idx_whole7 : ∀ t : Fin cfg2.N, win2_7.index t (0 : Fin 2) = 0 ∧ win2_7.index t (1 : Fin 2) = 0 :=
  (by decide +kernel : ∀ t : Fin grid2.N, _)
theorem idx_whole8 : ∀ t : Fin cfg2.N, win2_8.index t (0 : Fin 2) = 0 ∧ win2_8.index t (1 : Fin 2) = 0 :=
  (by decide +kernel : ∀ t : Fin grid2.N, _)
theorem idx_whole9 : ∀ t : Fin cfg2.N, win2_9.index t (0 : Fin 2) = 0 ∧ win2_9.index t (1 : Fin 2) = 0 :=
  (by decide +kernel : ∀ t : Fin grid2.N, _)

/-- Every one of the 25 row blocks is some point's. -/
theorem idx_onto : ∀ q0 : Fin 25, ∃ t : Fin cfg2.N, win2_10.index t = ![q0.val, 0] :=
  (by decide +kernel : ∀ q0 : Fin 25, ∃ t : Fin grid2.N, win2_10.index t = ![q0.val, 0])

/-- The array row that row r of point t's block is. -/
def rowAt2 (t : Fin cfg2.N) (r : Fin 2000) : Fin 50000 :=
  ⟨win2_10.index t (0 : Fin 2) * 2000 + r.val, by
    have h := (idx_out t).1
    have hr := r.isLt
    omega⟩

/-! ## The input windows' blocks, read off the arrays -/

/-- The summed neighbour features' block at point t, read at (r, j), is the array at (block·2000 + r, j). -/
theorem blk2_0 (c : Dev nD) (t : Fin cfg2.N) (r : Fin 2000) (j : Fin 256) :
    iblk2 V c 0 t (ix2 r j) = (V c main_v39 : S50000x256.Idx → EReal) (ix2 (rowAt2 t r) j) := by
  obtain ⟨e0, e1, -⟩ := idx_rows t
  show (V c main_v39 : S50000x256.Idx → EReal) (((cfg2.win 0).blk t).view.emb (ix2 r j)) = _
  refine congrArg _ (funext fun a => Fin.ext ?_)
  match a with
  | ⟨0, _⟩ => show win2_0.index t (0 : Fin 2) * 2000 + 1 * r.val = win2_10.index t (0 : Fin 2) * 2000 + r.val; omega
  | ⟨1, _⟩ => show win2_0.index t (1 : Fin 2) * 256 + 1 * j.val = j.val; omega

/-- The column of reciprocals' block at point t, read at (r, 0), is the array at (block·2000 + r, 0). -/
theorem blk2_1 (c : Dev nD) (t : Fin cfg2.N) (r : Fin 2000) :
    iblk2 V c 1 t (ix2 r (0 : Fin 1)) = (V c main_v12 : S50000x1.Idx → EReal) (ix2 (rowAt2 t r) (0 : Fin 1)) := by
  obtain ⟨-, -, e0, e1, -⟩ := idx_rows t
  show (V c main_v12 : S50000x1.Idx → EReal) (((cfg2.win 1).blk t).view.emb (ix2 r (0 : Fin 1))) = _
  refine congrArg _ (funext fun a => Fin.ext ?_)
  match a with
  | ⟨0, _⟩ => show win2_1.index t (0 : Fin 2) * 2000 + 1 * r.val = win2_10.index t (0 : Fin 2) * 2000 + r.val; omega
  | ⟨1, _⟩ => show win2_1.index t (1 : Fin 2) * 1 + 1 * 0 = 0; omega

/-- The node features' block at point t, read at (r, j), is the array at (block·2000 + r, j). -/
theorem blk2_2 (c : Dev nD) (t : Fin cfg2.N) (r : Fin 2000) (j : Fin 256) :
    iblk2 V c 2 t (ix2 r j) = (V c main_v28 : S50000x256.Idx → EReal) (ix2 (rowAt2 t r) j) := by
  obtain ⟨-, -, -, -, e0, e1⟩ := idx_rows t
  show (V c main_v28 : S50000x256.Idx → EReal) (((cfg2.win 2).blk t).view.emb (ix2 r j)) = _
  refine congrArg _ (funext fun a => Fin.ext ?_)
  match a with
  | ⟨0, _⟩ => show win2_2.index t (0 : Fin 2) * 2000 + 1 * r.val = win2_10.index t (0 : Fin 2) * 2000 + r.val; omega
  | ⟨1, _⟩ => show win2_2.index t (1 : Fin 2) * 256 + 1 * j.val = j.val; omega

/-- The left weight of the convolution's window holds the whole array at every point. -/
theorem blk2_3 (c : Dev nD) (t : Fin cfg2.N) : iblk2 V c 3 t = (V c main_arg9 : S256x256.Idx → EReal) := by
  obtain ⟨e0, e1⟩ := idx_whole3 t
  funext y
  show (V c main_arg9 : S256x256.Idx → EReal) (((cfg2.win 3).blk t).view.emb y) = _
  refine congrArg _ (funext fun a => Fin.ext ?_)
  match a with
  | ⟨0, _⟩ => show win2_3.index t (0 : Fin 2) * 256 + 1 * (y 0).val = (y 0).val; omega
  | ⟨1, _⟩ => show win2_3.index t (1 : Fin 2) * 256 + 1 * (y 1).val = (y 1).val; omega

/-- The bias row of the convolution's window holds the whole array at every point. -/
theorem blk2_4 (c : Dev nD) (t : Fin cfg2.N) : iblk2 V c 4 t = (V c main_v40 : S1x256.Idx → EReal) := by
  obtain ⟨e0, e1⟩ := idx_whole4 t
  funext y
  show (V c main_v40 : S1x256.Idx → EReal) (((cfg2.win 4).blk t).view.emb y) = _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- The right weight of the convolution's window holds the whole array at every point. -/
theorem blk2_5 (c : Dev nD) (t : Fin cfg2.N) : iblk2 V c 5 t = (V c main_arg11 : S256x256.Idx → EReal) := by
  obtain ⟨e0, e1⟩ := idx_whole5 t
  funext y
  show (V c main_arg11 : S256x256.Idx → EReal) (((cfg2.win 5).blk t).view.emb y) = _
  refine congrArg _ (funext fun a => Fin.ext ?_)
  match a with
  | ⟨0, _⟩ => show win2_5.index t (0 : Fin 2) * 256 + 1 * (y 0).val = (y 0).val; omega
  | ⟨1, _⟩ => show win2_5.index t (1 : Fin 2) * 256 + 1 * (y 1).val = (y 1).val; omega

/-- The first readout weight's window holds the whole array at every point. -/
theorem blk2_6 (c : Dev nD) (t : Fin cfg2.N) : iblk2 V c 6 t = (V c main_arg12 : S256x128.Idx → EReal) := by
  obtain ⟨e0, e1⟩ := idx_whole6 t
  funext y
  show (V c main_arg12 : S256x128.Idx → EReal) (((cfg2.win 6).blk t).view.emb y) = _
  refine congrArg _ (funext fun a => Fin.ext ?_)
  match a with
  | ⟨0, _⟩ => show win2_6.index t (0 : Fin 2) * 256 + 1 * (y 0).val = (y 0).val; omega
  | ⟨1, _⟩ => show win2_6.index t (1 : Fin 2) * 128 + 1 * (y 1).val = (y 1).val; omega

/-- The first readout bias row's window holds the whole array at every point. -/
theorem blk2_7 (c : Dev nD) (t : Fin cfg2.N) : iblk2 V c 7 t = (V c main_v41 : S1x128.Idx → EReal) := by
  obtain ⟨e0, e1⟩ := idx_whole7 t
  funext y
  show (V c main_v41 : S1x128.Idx → EReal) (((cfg2.win 7).blk t).view.emb y) = _
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- The last readout weight's window holds the whole array at every point. -/
theorem blk2_8 (c : Dev nD) (t : Fin cfg2.N) : iblk2 V c 8 t = (V c main_arg14 : S128x12.Idx → EReal) := by
  obtain ⟨e0, e1⟩ := idx_whole8 t
  funext y
  show (V c main_arg14 : S128x12.Idx → EReal) (((cfg2.win 8).blk t).view.emb y) = _
  refine congrArg _ (funext fun a => Fin.ext ?_)
  match a with
  | ⟨0, _⟩ => show win2_8.index t (0 : Fin 2) * 128 + 1 * (y 0).val = (y 0).val; omega
  | ⟨1, _⟩ => show win2_8.index t (1 : Fin 2) * 12 + 1 * (y 1).val = (y 1).val; omega

/-- The last readout bias row's window holds the whole array at every point. -/
theorem blk2_9 (c : Dev nD) (t : Fin cfg2.N) : iblk2 V c 9 t = (V c main_v42 : S1x12.Idx → EReal) := by
  obtain ⟨e0, e1⟩ := idx_whole9 t
  funext y
  show (V c main_v42 : S1x12.Idx → EReal) (((cfg2.win 9).blk t).view.emb y) = _
  refine congrArg _ (funext fun a => Fin.ext ?_)
  match a with
  | ⟨0, _⟩ => show win2_9.index t (0 : Fin 2) * 1 + 1 * (y 0).val = (y 0).val; omega
  | ⟨1, _⟩ => show win2_9.index t (1 : Fin 2) * 12 + 1 * (y 1).val = (y 1).val; omega

/-! ## From the blocks to the array -/

/-- The readout of the convolution of the whole arrays the region finds. -/
abbrev G2 (c : Dev nD) : S50000x12.Idx → EReal :=
  readout
    (conv (scaleCol (V c main_v39 : S50000x256.Idx → EReal) (V c main_v12 : S50000x1.Idx → EReal))
      (V c main_v28 : S50000x256.Idx → EReal) (V c main_arg9 : S256x256.Idx → EReal)
      (rowOf (V c main_v40 : S1x256.Idx → EReal)) (V c main_arg11 : S256x256.Idx → EReal))
    (V c main_arg12 : S256x128.Idx → EReal) (rowOf (V c main_v41 : S1x128.Idx → EReal))
    (V c main_arg14 : S128x12.Idx → EReal) (rowOf (V c main_v42 : S1x12.Idx → EReal))

/-- What point t writes back is block t of the readout of the convolution of the whole arrays: row r of the block is
    the whole-array formula's row block·2000 + r, which depends on that one row of the summed neighbour features, of
    the column of reciprocals and of the node features. -/
theorem flushed2_eq (c : Dev nD) (t : Fin cfg2.N) :
    (dat2 V c).flushed 10 t = ((cfg2.win 10).blk t).view.read (Elt Ideal) (G2 V c) := by
  show (cfg2.win 10).cut (grid2.coords t) ((dat2 V c).after 10 t) = _
  rw [after2_10]
  unfold out2_10
  rw [View.canon_unit_zero hz]
  simp only [View.ld_unit_zero (S := S2000x256) hz, View.ld_unit_zero (S := S2000x1) hz,
    View.ld_unit_zero (S := S256x256) hz, View.ld_unit_zero (S := S1x256) hz, View.ld_unit_zero (S := S256x128) hz,
    View.ld_unit_zero (S := S1x128) hz, View.ld_unit_zero (S := S128x12) hz, View.ld_unit_zero (S := S1x12) hz]
  rw [pay_body (iblk2 V c 0 t) (iblk2 V c 1 t) (iblk2 V c 3 t) (iblk2 V c 4 t) (iblk2 V c 2 t) (iblk2 V c 5 t)
      (iblk2 V c 6 t) (iblk2 V c 7 t) (iblk2 V c 8 t) (iblk2 V c 9 t),
    blk2_3 V c t, blk2_4 V c t, blk2_5 V c t, blk2_6 V c t, blk2_7 V c t, blk2_8 V c t, blk2_9 V c t]
  obtain ⟨-, e1⟩ := idx_out t
  funext y
  obtain ⟨r, q, rfl⟩ : ∃ (r : Fin 2000) (q : Fin 12), y = ix2 r q := ⟨y 0, y 1, eq_ix2 y⟩
  have hemb : ((cfg2.win 10).blk t).view.emb (ix2 r q) = ix2 (rowAt2 t r) q := by
    funext a
    apply Fin.ext
    match a with
    | ⟨0, _⟩ => show win2_10.index t (0 : Fin 2) * 2000 + 1 * r.val = win2_10.index t (0 : Fin 2) * 2000 + r.val; omega
    | ⟨1, _⟩ => show win2_10.index t (1 : Fin 2) * 12 + 1 * q.val = q.val; omega
  show readout (conv (scaleCol (iblk2 V c 0 t) (iblk2 V c 1 t)) (iblk2 V c 2 t) _ _ _) _ _ _ _ (ix2 r q)
    = G2 V c (((cfg2.win 10).blk t).view.emb (ix2 r q))
  rw [hemb]
  exact readout_rows _ _ _ _ _ _ r (rowAt2 t r)
    (fun k => conv_rows _ _ _ _ _ _ _ r (rowAt2 t r)
      (fun j => scaleCol_rows _ _ _ _ r (rowAt2 t r) (fun j' => blk2_0 V c t r j') (blk2_1 V c t r) j)
      (fun j => blk2_2 V c t r j) k) q

/-- An index of the array is in point t's block iff each coordinate is in the block's range on its axis. -/
theorem mem_blk2 (t : Fin cfg2.N) (i : S50000x12.Idx) :
    i ∈ ((cfg2.win 10).blk t).view.set ↔ ∀ a : Fin 2, win2_10.index t a * S2000x12.size a ≤ (i a).val
      ∧ (i a).val < win2_10.index t a * S2000x12.size a + S2000x12.size a := by
  show i ∈ ((View.whole main_v43).slice (win2_10.rect t)).set ↔ _
  rw [View.set_slice_whole, Rect.mem_set_unit]
  exact Iff.rfl

/-- The 25 blocks of 2000 rows cover the array: row i is in block i / 2000. -/
theorem cover2 (i : S50000x12.Idx) :
    ∃ t : Fin cfg2.N, (cfg2.win 10).flush t = true ∧ i ∈ ((cfg2.win 10).blk t).view.set := by
  have hi0 : (i 0).val < 50000 := (i 0).isLt
  have hi1 : (i 1).val < 12 := (i 1).isLt
  obtain ⟨t, ht⟩ := idx_onto ⟨(i 0).val / 2000, by omega⟩
  have q0 : win2_10.index t (0 : Fin 2) = (i 0).val / 2000 := congrFun ht 0
  have q1 : win2_10.index t (1 : Fin 2) = 0 := congrFun ht 1
  refine ⟨t, flush2_10 t, ?_⟩
  rw [mem_blk2]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 12 ≤ (i 1).val ∧ (i 1).val < win2_10.index t (1 : Fin 2) * 12 + 12; omega

/-- The fused convolution and readout's output array after the region. -/
theorem final2 (c : Dev nD) :
    (dat2 V c).arrAt 10 cfg2.N
      = (readout
          (conv (scaleCol (V c main_v39 : S50000x256.Idx → EReal) (V c main_v12 : S50000x1.Idx → EReal))
            (V c main_v28 : S50000x256.Idx → EReal) (V c main_arg9 : S256x256.Idx → EReal)
            (rowOf (V c main_v40 : S1x256.Idx → EReal)) (V c main_arg11 : S256x256.Idx → EReal))
          (V c main_arg12 : S256x128.Idx → EReal) (rowOf (V c main_v41 : S1x128.Idx → EReal))
          (V c main_arg14 : S128x12.Idx → EReal) (rowOf (V c main_v42 : S1x12.Idx → EReal)) : S50000x12.Idx → EReal) :=
  (dat2 V c).arrAt_eq_of_cover 10 (G2 V c) (fun t _ => flushed2_eq V c t) cover2

end Cert.KernelIdeal.Closed2

end
-- ==== Proof.KernelValue.lean ====
/-
  The kernel program's result array in closed form: the three regions' whole-array results chained through the host
  operations between them (the degree count and its reciprocal column, the two gather-and-sum passes).
-/
import proofs.«131142_j50843822850084_2_alg».proof.Proof.Gen.KernelIdeal.Frame
import proofs.«131142_j50843822850084_2_alg».proof.Proof.Region0
import proofs.«131142_j50843822850084_2_alg».proof.Proof.Region1
import proofs.«131142_j50843822850084_2_alg».proof.Proof.Region2
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.LibMatmulPlain Cert.Layers Cert.Net

/-- The edges' source nodes (a negative one wrapped by the node count), as an index column. -/
def srcW (x1 : (⟨S2x400000, .i32⟩ : BufTy).Contents (Elt Ideal)) : (⟨S400000x1, .i32⟩ : BufTy).Contents (Elt Ideal) :=
  broadcastInDim S400000x1 ![0] bcast_S400000_S400000x1_0
    (select
      (cmpi .slt (shapeCast S400000 (extractStridedSlice S1x400000 ![0, 0] x1 slices_S2x400000_S1x400000_0_0) shapeCasts_S1x400000_S400000)
        (broadcastInDim S400000 ![] bcast_S_S400000 (constantI S_ 32 0#32)))
      (addi (shapeCast S400000 (extractStridedSlice S1x400000 ![0, 0] x1 slices_S2x400000_S1x400000_0_0) shapeCasts_S1x400000_S400000)
        (broadcastInDim S400000 ![] bcast_S_S400000 (constantI S_ 32 50000#32)))
      (shapeCast S400000 (extractStridedSlice S1x400000 ![0, 0] x1 slices_S2x400000_S1x400000_0_0) shapeCasts_S1x400000_S400000))

/-- The edges' destination nodes, as an index column. -/
def dstW (x1 : (⟨S2x400000, .i32⟩ : BufTy).Contents (Elt Ideal)) : (⟨S400000x1, .i32⟩ : BufTy).Contents (Elt Ideal) :=
  broadcastInDim S400000x1 ![0] bcast_S400000_S400000x1_0
    (shapeCast S400000 (extractStridedSlice S1x400000 ![1, 0] x1 slices_S2x400000_S1x400000_1_0) shapeCasts_S1x400000_S400000)

/-- The neighbours' feature rows summed into each edge's destination node, as this program's host code spells it. -/
def aggK (h : (⟨S50000x256, .bf16⟩ : BufTy).Contents (Elt Ideal)) (x1 : (⟨S2x400000, .i32⟩ : BufTy).Contents (Elt Ideal)) :
    (⟨S50000x256, .f32⟩ : BufTy).Contents (Elt Ideal) :=
  Host.scatterAdd (F := Ideal) scatter_S50000x256_S400000x1_S400000x256_1_0_0_1
    (broadcastInDim S50000x256 ![] bcast_S_S50000x256 (constant (F := Ideal) S_ .f32 0x00000000#32)) (dstW x1)
    (extf .f32 (Host.gather gather_S50000x256_S400000x1_S400000x256_1_0_n_n_0_1_1256 h (srcW x1)) bitsLt_bf16_f32)

/-- The column of reciprocals 1 / max (in-degree, 1). -/
def invK (x1 : (⟨S2x400000, .i32⟩ : BufTy).Contents (Elt Ideal)) : (⟨S50000x1, .f32⟩ : BufTy).Contents (Elt Ideal) :=
  shapeCast S50000x1
    (Host.divf (F := Ideal) (broadcastInDim S50000 ![] bcast_S_S50000 (constant (F := Ideal) S_ .f32 0x3F800000#32))
      (maximumf
        (Host.scatterAdd (F := Ideal) scatter_S50000_S400000x1_S400000_n_0_0_1
          (broadcastInDim S50000 ![] bcast_S_S50000 (constant (F := Ideal) S_ .f32 0x00000000#32)) (dstW x1)
          (broadcastInDim S400000 ![] bcast_S_S400000 (constant (F := Ideal) S_ .f32 0x3F800000#32)))
        (broadcastInDim S50000 ![] bcast_S_S50000 (constant (F := Ideal) S_ .f32 0x3F800000#32))))
    shapeCasts_S50000_S50000x1

variable (m : (ℓ : Loc nD τ sig) → Buf (Elt Ideal) ℓ) (ρ : Dev nD → PrngReg)

/-- The encoder's output, of the launch memory's arguments. -/
def hEnc (c : Dev nD) : S50000x256.Idx → EReal :=
  enc (m ((c : Thread nD τ).loc main_arg0) : S50000x24.Idx → EReal) (m ((c : Thread nD τ).loc main_arg2) : S24x128.Idx → EReal)
    (rowOf (shapeCast S1x128 (m ((c : Thread nD τ).loc main_arg3) : S128.Idx → EReal) shapeCasts_S128_S1x128))
    (m ((c : Thread nD τ).loc main_arg4) : S128x256.Idx → EReal)
    (rowOf (shapeCast S1x256 (m ((c : Thread nD τ).loc main_arg5) : S256.Idx → EReal) shapeCasts_S256_S1x256))

/-- The first convolution's output. -/
def hConv1 (c : Dev nD) : S50000x256.Idx → EReal :=
  conv (scaleCol (aggK (hEnc m c) (m ((c : Thread nD τ).loc main_arg1))) (invK (m ((c : Thread nD τ).loc main_arg1))))
    (hEnc m c) (m ((c : Thread nD τ).loc main_arg6) : S256x256.Idx → EReal)
    (rowOf (shapeCast S1x256 (m ((c : Thread nD τ).loc main_arg7) : S256.Idx → EReal) shapeCasts_S256_S1x256))
    (m ((c : Thread nD τ).loc main_arg8) : S256x256.Idx → EReal)

/-- The result array: the readout of the second convolution. -/
def outK (c : Dev nD) : S50000x12.Idx → EReal :=
  readout
    (conv (scaleCol (aggK (hConv1 m c) (m ((c : Thread nD τ).loc main_arg1))) (invK (m ((c : Thread nD τ).loc main_arg1))))
      (hConv1 m c) (m ((c : Thread nD τ).loc main_arg9) : S256x256.Idx → EReal)
      (rowOf (shapeCast S1x256 (m ((c : Thread nD τ).loc main_arg10) : S256.Idx → EReal) shapeCasts_S256_S1x256))
      (m ((c : Thread nD τ).loc main_arg11) : S256x256.Idx → EReal))
    (m ((c : Thread nD τ).loc main_arg12) : S256x128.Idx → EReal)
    (rowOf (shapeCast S1x128 (m ((c : Thread nD τ).loc main_arg13) : S128.Idx → EReal) shapeCasts_S128_S1x128))
    (m ((c : Thread nD τ).loc main_arg14) : S128x12.Idx → EReal)
    (rowOf (shapeCast S1x12 (m ((c : Thread nD τ).loc main_arg15) : S12.Idx → EReal) shapeCasts_S12_S1x12))

/-! ## One gather-and-sum pass, of the feature array and the two flattened rows of the edge list -/

/-- The pass as the host code spells it: the rows of `h` at the edges' source nodes (`r0`, a negative one wrapped by the
    node count) summed into the edges' destination nodes (`r1`). -/
def aggOf (h : (⟨S50000x256, .bf16⟩ : BufTy).Contents (Elt Ideal)) (r0 r1 : (⟨S400000, .i32⟩ : BufTy).Contents (Elt Ideal)) :
    (⟨S50000x256, .f32⟩ : BufTy).Contents (Elt Ideal) :=
  Host.scatterAdd (F := Ideal) scatter_S50000x256_S400000x1_S400000x256_1_0_0_1
    (broadcastInDim S50000x256 ![] bcast_S_S50000x256 (constant (F := Ideal) S_ .f32 0x00000000#32))
    (broadcastInDim S400000x1 ![0] bcast_S400000_S400000x1_0 r1)
    (extf .f32 (Host.gather gather_S50000x256_S400000x1_S400000x256_1_0_n_n_0_1_1256 h
      (broadcastInDim S400000x1 ![0] bcast_S400000_S400000x1_0
        (select (cmpi .slt r0 (broadcastInDim S400000 ![] bcast_S_S400000 (constantI S_ 32 0#32)))
          (addi r0 (broadcastInDim S400000 ![] bcast_S_S400000 (constantI S_ 32 50000#32))) r0))) bitsLt_bf16_f32)

/-- The pass of the edge list's two rows is the neighbour sum. -/
theorem aggOf_rows (h : (⟨S50000x256, .bf16⟩ : BufTy).Contents (Elt Ideal)) (x1 : (⟨S2x400000, .i32⟩ : BufTy).Contents (Elt Ideal)) :
    aggOf h (shapeCast S400000 (extractStridedSlice S1x400000 ![0, 0] x1 slices_S2x400000_S1x400000_0_0) shapeCasts_S1x400000_S400000)
      (shapeCast S400000 (extractStridedSlice S1x400000 ![1, 0] x1 slices_S2x400000_S1x400000_1_0) shapeCasts_S1x400000_S400000)
      = aggK h x1 := rfl

/-! ## A buffer a stretch of host operations does not write keeps its contents -/

/-- Closes `StableHlo.after ops V b = V b` for a buffer `b` that is the result of none of the listed operations. -/
local macro "unwritten" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## The first stretch: the two index vectors, the reciprocal column, the encoder's bias rows

Each lemma reads ONE buffer at the encoder's entry. An argument no operation writes is the launch memory's; an
operation's result is its function of the launch memory's arguments. -/

theorem V1_arg0 (c : Dev nD) : V1 m ρ c main_arg0 = m ((c : Thread nD τ).loc main_arg0) :=
  (by unwritten hostOps0 : StableHlo.after hostOps0 (W0 m ρ c) (Proc.devRef .tc main_arg0) = W0 m ρ c (Proc.devRef .tc main_arg0)).trans rfl

theorem V1_arg2 (c : Dev nD) : V1 m ρ c main_arg2 = m ((c : Thread nD τ).loc main_arg2) :=
  (by unwritten hostOps0 : StableHlo.after hostOps0 (W0 m ρ c) (Proc.devRef .tc main_arg2) = W0 m ρ c (Proc.devRef .tc main_arg2)).trans rfl

theorem V1_arg4 (c : Dev nD) : V1 m ρ c main_arg4 = m ((c : Thread nD τ).loc main_arg4) :=
  (by unwritten hostOps0 : StableHlo.after hostOps0 (W0 m ρ c) (Proc.devRef .tc main_arg4) = W0 m ρ c (Proc.devRef .tc main_arg4)).trans rfl

theorem V1_v13 (c : Dev nD) : (V1 m ρ c main_v13 : S1x128.Idx → EReal)
    = shapeCast S1x128 (m ((c : Thread nD τ).loc main_arg3) : S128.Idx → EReal) shapeCasts_S128_S1x128 := by
  show StableHlo.after hostOps0 (W0 m ρ c) (Proc.devRef .tc main_v13) = _
  after_results
  rfl

theorem V1_v14 (c : Dev nD) : (V1 m ρ c main_v14 : S1x256.Idx → EReal)
    = shapeCast S1x256 (m ((c : Thread nD τ).loc main_arg5) : S256.Idx → EReal) shapeCasts_S256_S1x256 := by
  show StableHlo.after hostOps0 (W0 m ρ c) (Proc.devRef .tc main_v14) = _
  after_results
  rfl

/-- The edges' source row of the edge list, flattened. -/
theorem W1_v1 (c : Dev nD) : (W1 m ρ c (Proc.devRef .tc main_v1) : (⟨S400000, .i32⟩ : BufTy).Contents (Elt Ideal))
    = shapeCast S400000 (extractStridedSlice S1x400000 ![0, 0] (m ((c : Thread nD τ).loc main_arg1)) slices_S2x400000_S1x400000_0_0) shapeCasts_S1x400000_S400000 := by
  show StableHlo.after hostOps0 (W0 m ρ c) (Proc.devRef .tc main_v1) = _
  after_results
  rfl

/-- The edges' destination row of the edge list, flattened. -/
theorem W1_v3 (c : Dev nD) : (W1 m ρ c (Proc.devRef .tc main_v3) : (⟨S400000, .i32⟩ : BufTy).Contents (Elt Ideal))
    = shapeCast S400000 (extractStridedSlice S1x400000 ![1, 0] (m ((c : Thread nD τ).loc main_arg1)) slices_S2x400000_S1x400000_1_0) shapeCasts_S1x400000_S400000 := by
  show StableHlo.after hostOps0 (W0 m ρ c) (Proc.devRef .tc main_v3) = _
  after_results
  rfl

/-- The reciprocal column: one over the larger of the in-degree count and one. -/
theorem W1_v12 (c : Dev nD) : (W1 m ρ c (Proc.devRef .tc main_v12) : (⟨S50000x1, .f32⟩ : BufTy).Contents (Elt Ideal))
    = invK (m ((c : Thread nD τ).loc main_arg1)) := by
  show StableHlo.after hostOps0 (W0 m ρ c) (Proc.devRef .tc main_v12) = _
  after_results
  rfl

/-! ## The encoder region and the second stretch: the first gather-and-sum pass -/

/-- The encoder's output array at the region's exit. -/
theorem W2_v15 (c : Dev nD) : (W2 m ρ c (Proc.devRef .tc main_v15) : S50000x256.Idx → EReal) = hEnc m c := by
  refine (W2_arr m ρ c 5).trans ((Closed0.final0 (V1 m ρ) c).trans ?_)
  rw [V1_arg0 m ρ c, V1_arg2 m ρ c, V1_v13 m ρ c, V1_arg4 m ρ c, V1_v14 m ρ c]
  rfl

theorem W2_v1 (c : Dev nD) : (W2 m ρ c (Proc.devRef .tc main_v1) : (⟨S400000, .i32⟩ : BufTy).Contents (Elt Ideal))
    = shapeCast S400000 (extractStridedSlice S1x400000 ![0, 0] (m ((c : Thread nD τ).loc main_arg1)) slices_S2x400000_S1x400000_0_0) shapeCasts_S1x400000_S400000 :=
  (W2_of_ne m ρ c main_v1 (by decide)).trans (W1_v1 m ρ c)

theorem W2_v3 (c : Dev nD) : (W2 m ρ c (Proc.devRef .tc main_v3) : (⟨S400000, .i32⟩ : BufTy).Contents (Elt Ideal))
    = shapeCast S400000 (extractStridedSlice S1x400000 ![1, 0] (m ((c : Thread nD τ).loc main_arg1)) slices_S2x400000_S1x400000_1_0) shapeCasts_S1x400000_S400000 :=
  (W2_of_ne m ρ c main_v3 (by decide)).trans (W1_v3 m ρ c)

theorem W2_v12 (c : Dev nD) : (W2 m ρ c (Proc.devRef .tc main_v12) : (⟨S50000x1, .f32⟩ : BufTy).Contents (Elt Ideal))
    = invK (m ((c : Thread nD τ).loc main_arg1)) :=
  (W2_of_ne m ρ c main_v12 (by decide)).trans (W1_v12 m ρ c)

theorem W2_arg7 (c : Dev nD) : W2 m ρ c (Proc.devRef .tc main_arg7) = m ((c : Thread nD τ).loc main_arg7) :=
  (W2_of_ne m ρ c main_arg7 (by decide)).trans
    ((by unwritten hostOps0 : StableHlo.after hostOps0 (W0 m ρ c) (Proc.devRef .tc main_arg7) = W0 m ρ c (Proc.devRef .tc main_arg7)).trans rfl)

theorem W2_arg6 (c : Dev nD) : W2 m ρ c (Proc.devRef .tc main_arg6) = m ((c : Thread nD τ).loc main_arg6) :=
  (W2_of_ne m ρ c main_arg6 (by decide)).trans
    ((by unwritten hostOps0 : StableHlo.after hostOps0 (W0 m ρ c) (Proc.devRef .tc main_arg6) = W0 m ρ c (Proc.devRef .tc main_arg6)).trans rfl)

theorem W2_arg8 (c : Dev nD) : W2 m ρ c (Proc.devRef .tc main_arg8) = m ((c : Thread nD τ).loc main_arg8) :=
  (W2_of_ne m ρ c main_arg8 (by decide)).trans
    ((by unwritten hostOps0 : StableHlo.after hostOps0 (W0 m ρ c) (Proc.devRef .tc main_arg8) = W0 m ρ c (Proc.devRef .tc main_arg8)).trans rfl)

/-- The second stretch's sum buffer, of the three buffers its operations read. -/
theorem V3_v26_raw (c : Dev nD) : (V3 m ρ c main_v26 : S50000x256.Idx → EReal)
    = aggOf (W2 m ρ c (Proc.devRef .tc main_v15)) (W2 m ρ c (Proc.devRef .tc main_v1)) (W2 m ρ c (Proc.devRef .tc main_v3)) := by
  show StableHlo.after hostOps1 (W2 m ρ c) (Proc.devRef .tc main_v26) = _
  after_results
  rfl

/-- The neighbours' encoded rows summed into each edge's destination node. -/
theorem V3_v26 (c : Dev nD) : (V3 m ρ c main_v26 : S50000x256.Idx → EReal) = aggK (hEnc m c) (m ((c : Thread nD τ).loc main_arg1)) := by
  refine (V3_v26_raw m ρ c).trans ?_
  rw [W2_v1 m ρ c, W2_v3 m ρ c, W2_v15 m ρ c]
  exact aggOf_rows _ _

theorem V3_v12 (c : Dev nD) : (V3 m ρ c main_v12 : S50000x1.Idx → EReal) = invK (m ((c : Thread nD τ).loc main_arg1)) :=
  (by unwritten hostOps1 : StableHlo.after hostOps1 (W2 m ρ c) (Proc.devRef .tc main_v12) = W2 m ρ c (Proc.devRef .tc main_v12)).trans (W2_v12 m ρ c)

theorem V3_v15 (c : Dev nD) : (V3 m ρ c main_v15 : S50000x256.Idx → EReal) = hEnc m c :=
  (by unwritten hostOps1 : StableHlo.after hostOps1 (W2 m ρ c) (Proc.devRef .tc main_v15) = W2 m ρ c (Proc.devRef .tc main_v15)).trans (W2_v15 m ρ c)

theorem V3_arg6 (c : Dev nD) : V3 m ρ c main_arg6 = m ((c : Thread nD τ).loc main_arg6) :=
  (by unwritten hostOps1 : StableHlo.after hostOps1 (W2 m ρ c) (Proc.devRef .tc main_arg6) = W2 m ρ c (Proc.devRef .tc main_arg6)).trans (W2_arg6 m ρ c)

theorem V3_arg8 (c : Dev nD) : V3 m ρ c main_arg8 = m ((c : Thread nD τ).loc main_arg8) :=
  (by unwritten hostOps1 : StableHlo.after hostOps1 (W2 m ρ c) (Proc.devRef .tc main_arg8) = W2 m ρ c (Proc.devRef .tc main_arg8)).trans (W2_arg8 m ρ c)

theorem V3_v27 (c : Dev nD) : (V3 m ρ c main_v27 : S1x256.Idx → EReal)
    = shapeCast S1x256 (m ((c : Thread nD τ).loc main_arg7) : S256.Idx → EReal) shapeCasts_S256_S1x256 := by
  show StableHlo.after hostOps1 (W2 m ρ c) (Proc.devRef .tc main_v27) = _
  after_results
  rw [W2_arg7 m ρ c]
  rfl

/-! ## The first convolution's region and the third stretch: the second gather-and-sum pass -/

/-- The first convolution's output array at the region's exit. -/
theorem W4_v28 (c : Dev nD) : (W4 m ρ c (Proc.devRef .tc main_v28) : S50000x256.Idx → EReal) = hConv1 m c := by
  refine (W4_arr m ρ c 6).trans ((Closed1.final1 (V3 m ρ) c).trans ?_)
  rw [V3_v26 m ρ c, V3_v12 m ρ c, V3_v15 m ρ c, V3_arg6 m ρ c, V3_v27 m ρ c, V3_arg8 m ρ c]
  rfl

theorem W4_v1 (c : Dev nD) : (W4 m ρ c (Proc.devRef .tc main_v1) : (⟨S400000, .i32⟩ : BufTy).Contents (Elt Ideal))
    = shapeCast S400000 (extractStridedSlice S1x400000 ![0, 0] (m ((c : Thread nD τ).loc main_arg1)) slices_S2x400000_S1x400000_0_0) shapeCasts_S1x400000_S400000 :=
  (W4_of_ne m ρ c main_v1 (by decide)).trans ((by unwritten hostOps1 : StableHlo.after hostOps1 (W2 m ρ c) (Proc.devRef .tc main_v1) = W2 m ρ c (Proc.devRef .tc main_v1)).trans (W2_v1 m ρ c))

theorem W4_v3 (c : Dev nD) : (W4 m ρ c (Proc.devRef .tc main_v3) : (⟨S400000, .i32⟩ : BufTy).Contents (Elt Ideal))
    = shapeCast S400000 (extractStridedSlice S1x400000 ![1, 0] (m ((c : Thread nD τ).loc main_arg1)) slices_S2x400000_S1x400000_1_0) shapeCasts_S1x400000_S400000 :=
  (W4_of_ne m ρ c main_v3 (by decide)).trans ((by unwritten hostOps1 : StableHlo.after hostOps1 (W2 m ρ c) (Proc.devRef .tc main_v3) = W2 m ρ c (Proc.devRef .tc main_v3)).trans (W2_v3 m ρ c))

/-- The reciprocal column is an input array of the first convolution's region, which leaves it as it found it. -/
theorem W4_v12 (c : Dev nD) : (W4 m ρ c (Proc.devRef .tc main_v12) : (⟨S50000x1, .f32⟩ : BufTy).Contents (Elt Ideal))
    = invK (m ((c : Thread nD τ).loc main_arg1)) :=
  (W4_arr m ρ c 1).trans ((((dat1 (V3 m ρ) c).arrAt_in 1 rfl _).trans (A_eq1 (V3 m ρ) c 1)).trans (V3_v12 m ρ c))

theorem W4_arg9 (c : Dev nD) : W4 m ρ c (Proc.devRef .tc main_arg9) = m ((c : Thread nD τ).loc main_arg9) :=
  (W4_of_ne m ρ c main_arg9 (by decide)).trans ((by unwritten hostOps1 : StableHlo.after hostOps1 (W2 m ρ c) (Proc.devRef .tc main_arg9) = W2 m ρ c (Proc.devRef .tc main_arg9)).trans
    ((W2_of_ne m ρ c main_arg9 (by decide)).trans ((by unwritten hostOps0 : StableHlo.after hostOps0 (W0 m ρ c) (Proc.devRef .tc main_arg9) = W0 m ρ c (Proc.devRef .tc main_arg9)).trans rfl)))

theorem W4_arg10 (c : Dev nD) : W4 m ρ c (Proc.devRef .tc main_arg10) = m ((c : Thread nD τ).loc main_arg10) :=
  (W4_of_ne m ρ c main_arg10 (by decide)).trans ((by unwritten hostOps1 : StableHlo.after hostOps1 (W2 m ρ c) (Proc.devRef .tc main_arg10) = W2 m ρ c (Proc.devRef .tc main_arg10)).trans
    ((W2_of_ne m ρ c main_arg10 (by decide)).trans ((by unwritten hostOps0 : StableHlo.after hostOps0 (W0 m ρ c) (Proc.devRef .tc main_arg10) = W0 m ρ c (Proc.devRef .tc main_arg10)).trans rfl)))

theorem W4_arg11 (c : Dev nD) : W4 m ρ c (Proc.devRef .tc main_arg11) = m ((c : Thread nD τ).loc main_arg11) :=
  (W4_of_ne m ρ c main_arg11 (by decide)).trans ((by unwritten hostOps1 : StableHlo.after hostOps1 (W2 m ρ c) (Proc.devRef .tc main_arg11) = W2 m ρ c (Proc.devRef .tc main_arg11)).trans
    ((W2_of_ne m ρ c main_arg11 (by decide)).trans ((by unwritten hostOps0 : StableHlo.after hostOps0 (W0 m ρ c) (Proc.devRef .tc main_arg11) = W0 m ρ c (Proc.devRef .tc main_arg11)).trans rfl)))

theorem W4_arg12 (c : Dev nD) : W4 m ρ c (Proc.devRef .tc main_arg12) = m ((c : Thread nD τ).loc main_arg12) :=
  (W4_of_ne m ρ c main_arg12 (by decide)).trans ((by unwritten hostOps1 : StableHlo.after hostOps1 (W2 m ρ c) (Proc.devRef .tc main_arg12) = W2 m ρ c (Proc.devRef .tc main_arg12)).trans
    ((W2_of_ne m ρ c main_arg12 (by decide)).trans ((by unwritten hostOps0 : StableHlo.after hostOps0 (W0 m ρ c) (Proc.devRef .tc main_arg12) = W0 m ρ c (Proc.devRef .tc main_arg12)).trans rfl)))

theorem W4_arg13 (c : Dev nD) : W4 m ρ c (Proc.devRef .tc main_arg13) = m ((c : Thread nD τ).loc main_arg13) :=
  (W4_of_ne m ρ c main_arg13 (by decide)).trans ((by unwritten hostOps1 : StableHlo.after hostOps1 (W2 m ρ c) (Proc.devRef .tc main_arg13) = W2 m ρ c (Proc.devRef .tc main_arg13)).trans
    ((W2_of_ne m ρ c main_arg13 (by decide)).trans ((by unwritten hostOps0 : StableHlo.after hostOps0 (W0 m ρ c) (Proc.devRef .tc main_arg13) = W0 m ρ c (Proc.devRef .tc main_arg13)).trans rfl)))

theorem W4_arg14 (c : Dev nD) : W4 m ρ c (Proc.devRef .tc main_arg14) = m ((c : Thread nD τ).loc main_arg14) :=
  (W4_of_ne m ρ c main_arg14 (by decide)).trans ((by unwritten hostOps1 : StableHlo.after hostOps1 (W2 m ρ c) (Proc.devRef .tc main_arg14) = W2 m ρ c (Proc.devRef .tc main_arg14)).trans
    ((W2_of_ne m ρ c main_arg14 (by decide)).trans ((by unwritten hostOps0 : StableHlo.after hostOps0 (W0 m ρ c) (Proc.devRef .tc main_arg14) = W0 m ρ c (Proc.devRef .tc main_arg14)).trans rfl)))

theorem W4_arg15 (c : Dev nD) : W4 m ρ c (Proc.devRef .tc main_arg15) = m ((c : Thread nD τ).loc main_arg15) :=
  (W4_of_ne m ρ c main_arg15 (by decide)).trans ((by unwritten hostOps1 : StableHlo.after hostOps1 (W2 m ρ c) (Proc.devRef .tc main_arg15) = W2 m ρ c (Proc.devRef .tc main_arg15)).trans
    ((W2_of_ne m ρ c main_arg15 (by decide)).trans ((by unwritten hostOps0 : StableHlo.after hostOps0 (W0 m ρ c) (Proc.devRef .tc main_arg15) = W0 m ρ c (Proc.devRef .tc main_arg15)).trans rfl)))

/-- The third stretch's sum buffer, of the three buffers its operations read. -/
theorem V5_v39_raw (c : Dev nD) : (V5 m ρ c main_v39 : S50000x256.Idx → EReal)
    = aggOf (W4 m ρ c (Proc.devRef .tc main_v28)) (W4 m ρ c (Proc.devRef .tc main_v1)) (W4 m ρ c (Proc.devRef .tc main_v3)) := by
  show StableHlo.after hostOps2 (W4 m ρ c) (Proc.devRef .tc main_v39) = _
  after_results
  rfl

/-- The neighbours' rows of the first convolution's output summed into each edge's destination node. -/
theorem V5_v39 (c : Dev nD) : (V5 m ρ c main_v39 : S50000x256.Idx → EReal) = aggK (hConv1 m c) (m ((c : Thread nD τ).loc main_arg1)) := by
  refine (V5_v39_raw m ρ c).trans ?_
  rw [W4_v1 m ρ c, W4_v3 m ρ c, W4_v28 m ρ c]
  exact aggOf_rows _ _

theorem V5_v12 (c : Dev nD) : (V5 m ρ c main_v12 : S50000x1.Idx → EReal) = invK (m ((c : Thread nD τ).loc main_arg1)) :=
  (by unwritten hostOps2 : StableHlo.after hostOps2 (W4 m ρ c) (Proc.devRef .tc main_v12) = W4 m ρ c (Proc.devRef .tc main_v12)).trans (W4_v12 m ρ c)

theorem V5_v28 (c : Dev nD) : (V5 m ρ c main_v28 : S50000x256.Idx → EReal) = hConv1 m c :=
  (by unwritten hostOps2 : StableHlo.after hostOps2 (W4 m ρ c) (Proc.devRef .tc main_v28) = W4 m ρ c (Proc.devRef .tc main_v28)).trans (W4_v28 m ρ c)

theorem V5_arg9 (c : Dev nD) : V5 m ρ c main_arg9 = m ((c : Thread nD τ).loc main_arg9) :=
  (by unwritten hostOps2 : StableHlo.after hostOps2 (W4 m ρ c) (Proc.devRef .tc main_arg9) = W4 m ρ c (Proc.devRef .tc main_arg9)).trans (W4_arg9 m ρ c)

theorem V5_arg11 (c : Dev nD) : V5 m ρ c main_arg11 = m ((c : Thread nD τ).loc main_arg11) :=
  (by unwritten hostOps2 : StableHlo.after hostOps2 (W4 m ρ c) (Proc.devRef .tc main_arg11) = W4 m ρ c (Proc.devRef .tc main_arg11)).trans (W4_arg11 m ρ c)

theorem V5_arg12 (c : Dev nD) : V5 m ρ c main_arg12 = m ((c : Thread nD τ).loc main_arg12) :=
  (by unwritten hostOps2 : StableHlo.after hostOps2 (W4 m ρ c) (Proc.devRef .tc main_arg12) = W4 m ρ c (Proc.devRef .tc main_arg12)).trans (W4_arg12 m ρ c)

theorem V5_arg14 (c : Dev nD) : V5 m ρ c main_arg14 = m ((c : Thread nD τ).loc main_arg14) :=
  (by unwritten hostOps2 : StableHlo.after hostOps2 (W4 m ρ c) (Proc.devRef .tc main_arg14) = W4 m ρ c (Proc.devRef .tc main_arg14)).trans (W4_arg14 m ρ c)

theorem V5_v40 (c : Dev nD) : (V5 m ρ c main_v40 : S1x256.Idx → EReal)
    = shapeCast S1x256 (m ((c : Thread nD τ).loc main_arg10) : S256.Idx → EReal) shapeCasts_S256_S1x256 := by
  show StableHlo.after hostOps2 (W4 m ρ c) (Proc.devRef .tc main_v40) = _
  after_results
  rw [W4_arg10 m ρ c]
  rfl

theorem V5_v41 (c : Dev nD) : (V5 m ρ c main_v41 : S1x128.Idx → EReal)
    = shapeCast S1x128 (m ((c : Thread nD τ).loc main_arg13) : S128.Idx → EReal) shapeCasts_S128_S1x128 := by
  show StableHlo.after hostOps2 (W4 m ρ c) (Proc.devRef .tc main_v41) = _
  after_results
  rw [W4_arg13 m ρ c]
  rfl

theorem V5_v42 (c : Dev nD) : (V5 m ρ c main_v42 : S1x12.Idx → EReal)
    = shapeCast S1x12 (m ((c : Thread nD τ).loc main_arg15) : S12.Idx → EReal) shapeCasts_S12_S1x12 := by
  show StableHlo.after hostOps2 (W4 m ρ c) (Proc.devRef .tc main_v42) = _
  after_results
  rw [W4_arg15 m ρ c]
  rfl

/-! ## The last region: the second convolution and the readout -/

/-- The last boundary's contents of the result buffer are that closed form of the launch memory's arguments. -/
theorem result (c : Dev nD) : (W6 m ρ c (Proc.devRef .tc main_v43) : S50000x12.Idx → EReal) = outK m c := by
  refine (W6_arr m ρ c 10).trans ((Closed2.final2 (V5 m ρ) c).trans ?_)
  rw [V5_v39 m ρ c, V5_v12 m ρ c, V5_v28 m ρ c, V5_arg9 m ρ c, V5_v40 m ρ c, V5_arg11 m ρ c, V5_arg12 m ρ c,
    V5_v41 m ρ c, V5_arg14 m ρ c, V5_v42 m ρ c]
  rfl

end Cert.KernelIdeal.Whole

end
-- ==== Proof.RefValue.lean ====
/-
  The reference program's result as the network's layers: the encoder, two graph convolutions on the neighbourhood
  mean (the summed neighbour features divided row by row by max (in-degree, 1)), and the readout.
-/
import proofs.«131142_j50843822850084_2_alg».proof.Proof.Gen.ReferenceIdeal.Read
import proofs.«131142_j50843822850084_2_alg».proof.Proof.LibMeanConv
import Idealize.ShloMosaic.Lib.Pipeline.Value
import Idealize.ShloMosaic.Lib.ValueLayout
import Idealize.ShloMosaic.Lib.ValueIdx

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Read Cert.LibMatmulPlain Cert.Layers Cert.Net

/-- The neighbours' feature rows summed into each edge's destination node, as the host spells it: the rows of h
    gathered at the edges' (wrapped) sources, added into zeros at the edges' destinations. -/
def agg (h : FVec Ideal S50000x256 .f32) (x1 : (⟨S2x400000, .i32⟩ : BufTy).Contents (Elt Ideal)) : FVec Ideal S50000x256 .f32 :=
  Host.scatterAdd (F := Ideal) scatter_S50000x256_S400000x1_S400000x256_1_0_0_1 (val_main_v21 (F := Ideal)) (val_main_v22 (F := Ideal) x1)
    (Host.gather gather_S50000x256_S400000x1_S400000x256_1_0_n_n_0_1_1256 h (val_main_v19 (F := Ideal) x1))

/-- max (in-degree, 1) per node. -/
def divisor (x1 : (⟨S2x400000, .i32⟩ : BufTy).Contents (Elt Ideal)) : S50000.Idx → EReal := val_main_v29 (F := Ideal) x1

/-- Every row of s divided by that row's entry of d, as the host spells it: d laid out as one column and the
    column repeated along the rows. -/
theorem hostDivRow_eq {m n : Nat} (s : FVec Ideal ⟨2, ![m, n]⟩ .f32) (d : FVec Ideal ⟨1, ![m]⟩ .f32)
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf s (broadcastInDim ⟨2, ![m, n]⟩ ![0, 1] h2 (broadcastInDim ⟨2, ![m, 1]⟩ ![0] h1 d)) = divRow s d := by
  funext i
  obtain ⟨p, q, rfl⟩ : ∃ (p : Fin m) (q : Fin n), i = ix2 p q := ⟨i 0, i 1, eq_ix2 i⟩
  show Ideal.div (s (ix2 p q)) (broadcastInDim ⟨2, ![m, n]⟩ ![0, 1] h2 (broadcastInDim ⟨2, ![m, 1]⟩ ![0] h1 d) (ix2 p q))
    = Ideal.div (s (ix2 p q)) (d (ix1 p))
  refine congrArg (Ideal.div (s (ix2 p q))) ?_
  refine (broadcastInDim_apply _ h2 _ (ix2 p q) (ix2 p (0 : Fin 1)) fun ax => ?_).trans
    (broadcastInDim_apply _ h1 d (ix2 p (0 : Fin 1)) (ix1 p) fun ax => ?_)
  · match ax with
    | ⟨0, _⟩ => show p.val = if m = 1 then 0 else p.val; split_ifs with h <;> omega
    | ⟨1, _⟩ => show (0 : Nat) = if (1 : Nat) = 1 then 0 else q.val; rw [if_pos rfl]
  · match ax with
    | ⟨0, _⟩ => show p.val = if m = 1 then 0 else p.val; split_ifs with h <;> omega

section Stages

variable (x0 : (⟨S50000x24, .f32⟩ : BufTy).Contents (Elt Ideal))
  (x1 : (⟨S2x400000, .i32⟩ : BufTy).Contents (Elt Ideal))
  (x2 : (⟨S24x128, .f32⟩ : BufTy).Contents (Elt Ideal))
  (x3 : (⟨S128, .f32⟩ : BufTy).Contents (Elt Ideal))
  (x4 : (⟨S128x256, .f32⟩ : BufTy).Contents (Elt Ideal))
  (x5 : (⟨S256, .f32⟩ : BufTy).Contents (Elt Ideal))
  (x6 : (⟨S256x256, .f32⟩ : BufTy).Contents (Elt Ideal))
  (x7 : (⟨S256, .f32⟩ : BufTy).Contents (Elt Ideal))
  (x8 : (⟨S256x256, .f32⟩ : BufTy).Contents (Elt Ideal))
  (x9 : (⟨S256x256, .f32⟩ : BufTy).Contents (Elt Ideal))
  (x10 : (⟨S256, .f32⟩ : BufTy).Contents (Elt Ideal))
  (x11 : (⟨S256x256, .f32⟩ : BufTy).Contents (Elt Ideal))
  (x12 : (⟨S256x128, .f32⟩ : BufTy).Contents (Elt Ideal))
  (x13 : (⟨S128, .f32⟩ : BufTy).Contents (Elt Ideal))
  (x14 : (⟨S128x12, .f32⟩ : BufTy).Contents (Elt Ideal))
  (x15 : (⟨S12, .f32⟩ : BufTy).Contents (Elt Ideal))

/-- The encoder: two rectified dense layers. -/
theorem enc_eq : val_main_v13 (F := Ideal) x0 x2 x3 x4 x5 = enc x0 x2 x3 x4 x5 := by
  unfold val_main_v13 val_main_v12 val_main_v11 val_main_v10 val_main_v9 val_main_v8 val_main_v7 val_main_v6 val_main_v5
    val_main_v4 val_main_call1_v0 val_main_call1_cst val_main_call0_v0 val_main_call0_cst
  rw [hostMm_eq dot_S50000x24_S24x128_S50000x128_1_0_0_1_n_n dot_S50000x24_S24x128_S50000x128_1_0_0_1_n_n.wf rfl x0 x2,
    hostBias_eq x3 _ _, hostRect_eq _ _,
    hostMm_eq dot_S50000x128_S128x256_S50000x256_1_0_0_1_n_n dot_S50000x128_S128x256_S50000x256_1_0_0_1_n_n.wf rfl _ x4,
    hostBias_eq x5 _ _, hostRect_eq _ _]
  rfl

/-! The second convolution recomputes the index columns, the zeros and the divisor: the same spellings again. -/

theorem src_eq : val_main_v45 (F := Ideal) x1 = val_main_v19 (F := Ideal) x1 := by
  unfold val_main_v45 val_main_v44 val_main_v43 val_main_v42 val_main_v41 val_main_v40 val_main_c_4 val_main_c_5
    val_main_v19 val_main_v18 val_main_v17 val_main_v16 val_main_v15 val_main_v14 val_main_c val_main_c_0
  rfl

theorem dst_eq : val_main_v48 (F := Ideal) x1 = val_main_v22 (F := Ideal) x1 := by
  unfold val_main_v48 val_main_v22
  rfl

theorem zeros_eq : val_main_v47 (F := Ideal) = val_main_v21 (F := Ideal) := by
  unfold val_main_v47 val_main_v21 val_main_cst_6 val_main_cst
  rfl

theorem divisor_eq : val_main_v55 (F := Ideal) x1 = val_main_v29 (F := Ideal) x1 := by
  unfold val_main_v55 val_main_v54 val_main_v53 val_main_v52 val_main_v51 val_main_v50 val_main_cst_7 val_main_cst_8 val_main_cst_9
    val_main_v29 val_main_v28 val_main_v27 val_main_v26 val_main_v25 val_main_v24 val_main_cst_1 val_main_cst_2 val_main_cst_3
  rfl

/-- The first neighbourhood mean. -/
theorem mean1_eq : val_main_v32 (F := Ideal) x0 x1 x2 x3 x4 x5
    = divRow (agg (enc x0 x2 x3 x4 x5) x1) (divisor x1) := by
  unfold val_main_v32 val_main_v31 val_main_v30 val_main_v23 val_main_v20
  rw [hostDivRow_eq _ (val_main_v29 (F := Ideal) x1) _ _, enc_eq]
  rfl

/-- The first convolution. -/
theorem conv1_eq : val_main_v39 (F := Ideal) x0 x1 x2 x3 x4 x5 x6 x7 x8
    = conv (divRow (agg (enc x0 x2 x3 x4 x5) x1) (divisor x1)) (enc x0 x2 x3 x4 x5) x6 x7 x8 := by
  unfold val_main_v39 val_main_v38 val_main_v37 val_main_v36 val_main_v35 val_main_v34 val_main_v33
    val_main_call2_v0 val_main_call2_cst
  rw [mean1_eq, enc_eq,
    hostMm_eq dot_S50000x256_S256x256_S50000x256_1_0_0_1_n_n dot_S50000x256_S256x256_S50000x256_1_0_0_1_n_n.wf rfl _ x6,
    hostMm_eq dot_S50000x256_S256x256_S50000x256_1_0_0_1_n_n dot_S50000x256_S256x256_S50000x256_1_0_0_1_n_n.wf rfl _ x8,
    hostBias_eq x7 _ _, hostRect_eq _ _]
  generalize divRow (agg (enc x0 x2 x3 x4 x5) x1) (divisor x1) = mean
  generalize enc x0 x2 x3 x4 x5 = h
  rfl

/-- The second neighbourhood mean, of the first convolution's result h. -/
theorem mean2_eq : val_main_v58 (F := Ideal) x0 x1 x2 x3 x4 x5 x6 x7 x8
    = divRow (agg (val_main_v39 (F := Ideal) x0 x1 x2 x3 x4 x5 x6 x7 x8) x1) (divisor x1) := by
  unfold val_main_v58 val_main_v57 val_main_v56 val_main_v49 val_main_v46
  rw [divisor_eq, zeros_eq, dst_eq, src_eq, hostDivRow_eq _ (val_main_v29 (F := Ideal) x1) _ _]
  rfl

/-- The second convolution. -/
theorem conv2_eq : val_main_v65 (F := Ideal) x0 x1 x2 x3 x4 x5 x6 x7 x8 x9 x10 x11
    = conv (divRow (agg (val_main_v39 (F := Ideal) x0 x1 x2 x3 x4 x5 x6 x7 x8) x1) (divisor x1))
        (val_main_v39 (F := Ideal) x0 x1 x2 x3 x4 x5 x6 x7 x8) x9 x10 x11 := by
  unfold val_main_v65 val_main_v64 val_main_v63 val_main_v62 val_main_v61 val_main_v60 val_main_v59
    val_main_call3_v0 val_main_call3_cst
  rw [mean2_eq,
    hostMm_eq dot_S50000x256_S256x256_S50000x256_1_0_0_1_n_n dot_S50000x256_S256x256_S50000x256_1_0_0_1_n_n.wf rfl _ x9,
    hostMm_eq dot_S50000x256_S256x256_S50000x256_1_0_0_1_n_n dot_S50000x256_S256x256_S50000x256_1_0_0_1_n_n.wf rfl _ x11,
    hostBias_eq x10 _ _, hostRect_eq _ _]
  generalize val_main_v39 (F := Ideal) x0 x1 x2 x3 x4 x5 x6 x7 x8 = h
  generalize divRow (agg h x1) (divisor x1) = mean
  rfl

/-- The readout. -/
theorem readout_eq : val_main_v74 (F := Ideal) x0 x1 x2 x3 x4 x5 x6 x7 x8 x9 x10 x11 x12 x13 x14 x15
    = readout (val_main_v65 (F := Ideal) x0 x1 x2 x3 x4 x5 x6 x7 x8 x9 x10 x11) x12 x13 x14 x15 := by
  unfold val_main_v74 val_main_v73 val_main_v72 val_main_v71 val_main_v70 val_main_v69 val_main_v68 val_main_v67 val_main_v66
    val_main_call4_v0 val_main_call4_cst
  generalize val_main_v65 (F := Ideal) x0 x1 x2 x3 x4 x5 x6 x7 x8 x9 x10 x11 = h
  rw [hostMm_eq dot_S50000x256_S256x128_S50000x128_1_0_0_1_n_n dot_S50000x256_S256x128_S50000x128_1_0_0_1_n_n.wf rfl h x12,
    hostBias_eq x13 _ _, hostRect_eq _ _,
    hostMm_eq dot_S50000x128_S128x12_S50000x12_1_0_0_1_n_n dot_S50000x128_S128x12_S50000x12_1_0_0_1_n_n.wf rfl _ x14,
    hostBias_eq x15 _ _]
  rfl

end Stages

/-- The reference's result is the readout of the second convolution of the first convolution of the encoder. -/
theorem ref_eq (x0 : (⟨S50000x24, .f32⟩ : BufTy).Contents (Elt Ideal))
    (x1 : (⟨S2x400000, .i32⟩ : BufTy).Contents (Elt Ideal))
    (x2 : (⟨S24x128, .f32⟩ : BufTy).Contents (Elt Ideal))
    (x3 : (⟨S128, .f32⟩ : BufTy).Contents (Elt Ideal))
    (x4 : (⟨S128x256, .f32⟩ : BufTy).Contents (Elt Ideal))
    (x5 : (⟨S256, .f32⟩ : BufTy).Contents (Elt Ideal))
    (x6 : (⟨S256x256, .f32⟩ : BufTy).Contents (Elt Ideal))
    (x7 : (⟨S256, .f32⟩ : BufTy).Contents (Elt Ideal))
    (x8 : (⟨S256x256, .f32⟩ : BufTy).Contents (Elt Ideal))
    (x9 : (⟨S256x256, .f32⟩ : BufTy).Contents (Elt Ideal))
    (x10 : (⟨S256, .f32⟩ : BufTy).Contents (Elt Ideal))
    (x11 : (⟨S256x256, .f32⟩ : BufTy).Contents (Elt Ideal))
    (x12 : (⟨S256x128, .f32⟩ : BufTy).Contents (Elt Ideal))
    (x13 : (⟨S128, .f32⟩ : BufTy).Contents (Elt Ideal))
    (x14 : (⟨S128x12, .f32⟩ : BufTy).Contents (Elt Ideal))
    (x15 : (⟨S12, .f32⟩ : BufTy).Contents (Elt Ideal)) :
    val_main_v74 (F := Ideal) x0 x1 x2 x3 x4 x5 x6 x7 x8 x9 x10 x11 x12 x13 x14 x15
      = readout
          (conv (divRow (agg (conv (divRow (agg (enc x0 x2 x3 x4 x5) x1) (divisor x1)) (enc x0 x2 x3 x4 x5) x6 x7 x8) x1) (divisor x1))
            (conv (divRow (agg (enc x0 x2 x3 x4 x5) x1) (divisor x1)) (enc x0 x2 x3 x4 x5) x6 x7 x8) x9 x10 x11)
          x12 x13 x14 x15 := by
  rw [readout_eq, conv2_eq, conv1_eq]

end Cert.ReferenceIdeal.RefValue

end
-- ==== Proof.Bridge.lean ====
/-
  The two programs compute one function of the arguments.

  The kernel's closed form and the reference's differ in three spellings only. The kernel's biases reach its regions
  reshaped to [1, n] rows, whose one row is the bias again. Its neighbour sums gather rows of a narrower float format
  and widen them before the sum, the identity on the extended reals, so the sums are the reference's. And it multiplies
  the summed rows by the column 1 / max (in-degree, 1) where the reference divides them by max (in-degree, 1): the
  divisor is at least 1, so not 0, and a quotient by a nonzero divisor is the product with the divisor's inverse at
  every extended real — no entry need be finite.
-/
import proofs.«131142_j50843822850084_2_alg».proof.Proof.KernelValue
import proofs.«131142_j50843822850084_2_alg».proof.Proof.RefValue
import proofs.«131142_j50843822850084_2_alg».proof.Proof.LibMeanConv
import proofs.«131142_j50843822850084_2_alg».proof.Proof.LibKeepdims
import Idealize.ShloMosaic.Lib.Pipeline.Value
import Idealize.ShloMosaic.Lib.ValueLayout
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.LibMatmulPlain Cert.Layers Cert.Net
open Cert.KernelIdeal.Whole Cert.ReferenceIdeal.RefValue

/-- A bias vector reshaped to a [1, n] row: the row is the vector. -/
theorem rowOf_cast {n : Nat} (b : FVec Ideal ⟨1, ![n]⟩ .f32) (h : (⟨1, ![n]⟩ : Shape).ShapeCasts ⟨2, ![1, n]⟩) :
    rowOf (shapeCast ⟨2, ![1, n]⟩ b h) = b := by
  funext i
  obtain ⟨q, rfl⟩ : ∃ q : Fin n, i = ix1 q := ⟨i 0, eq_ix1 i⟩
  exact shapeCast_a_1a_apply b h 0 q

/-- The neighbour sums: gathering rows of the narrower format and widening them is gathering the rows. -/
theorem agg_eq (h : FVec Ideal Cert.KernelIdeal.S50000x256 .f32)
    (x1 : (⟨Cert.KernelIdeal.S2x400000, .i32⟩ : BufTy).Contents (Elt Ideal)) :
    aggK h x1 = agg h x1 := rfl

/-- The reference's divisor is the in-degree count's entrywise maximum with the all-ones vector. -/
theorem divisor_def (x1 : (⟨Cert.ReferenceIdeal.S2x400000, .i32⟩ : BufTy).Contents (Elt Ideal)) :
    divisor x1 = (maximumf (Cert.ReferenceIdeal.Read.val_main_v27 (F := Ideal) x1) (Cert.ReferenceIdeal.Read.val_main_v28 (F := Ideal)) :
      FVec Ideal Cert.ReferenceIdeal.S50000 .f32) := rfl

/-- The reference's divisor at node p is the larger of the in-degree and 1: not 0. -/
theorem divisor_ne_zero (x1 : (⟨Cert.ReferenceIdeal.S2x400000, .i32⟩ : BufTy).Contents (Elt Ideal)) (p : Fin 50000) :
    divisor x1 (ix1 p) ≠ 0 := by
  rw [divisor_def]
  generalize Cert.ReferenceIdeal.Read.val_main_v27 (F := Ideal) x1 = cnt
  show max (cnt (ix1 p)) (Cert.ReferenceIdeal.Read.val_main_v28 (F := Ideal) (ix1 p)) ≠ 0
  refine max_one_ne_zero _ _ ?_
  rw [Cert.ReferenceIdeal.Read.val_main_v28_apply]
  exact ofBits_one

/-- The kernel's reciprocal column is the all-ones vector over the reference's divisor, reshaped to a column: the two
    programs spell the in-degree count and its maximum with 1 alike. -/
theorem invK_def (x1 : (⟨Cert.KernelIdeal.S2x400000, .i32⟩ : BufTy).Contents (Elt Ideal)) :
    invK x1 = shapeCast Cert.KernelIdeal.S50000x1
      (Host.divf (F := Ideal)
        (broadcastInDim Cert.KernelIdeal.S50000 ![] Cert.KernelIdeal.Gen.bcast_S_S50000 (constant (F := Ideal) Cert.KernelIdeal.S_ .f32 0x3F800000#32))
        (divisor x1))
      Cert.KernelIdeal.Gen.shapeCasts_S50000_S50000x1 := rfl

/-- The kernel's reciprocal column at node p is 1 over the reference's divisor. -/
theorem invK_apply (x1 : (⟨Cert.KernelIdeal.S2x400000, .i32⟩ : BufTy).Contents (Elt Ideal)) (p : Fin 50000) :
    invK x1 (ix2 p (0 : Fin 1)) = Ideal.div (Ideal.ofBits .f32 0x3F800000#32) (divisor x1 (ix1 p)) := by
  rw [invK_def]
  generalize divisor x1 = d
  refine (Cert.Lib.Keepdims.castCol_apply _ Cert.KernelIdeal.Gen.shapeCasts_S50000_S50000x1 p).trans ?_
  show Ideal.div (broadcastInDim Cert.KernelIdeal.S50000 ![] Cert.KernelIdeal.Gen.bcast_S_S50000
      (constant (F := Ideal) Cert.KernelIdeal.S_ .f32 0x3F800000#32) (ix1 p)) (d (ix1 p)) = _
  rw [broadcastInDim_apply _ Cert.KernelIdeal.Gen.bcast_S_S50000 _ (ix1 p) ix0 fun ax => ax.elim0]
  rfl

/-- Scaling the summed rows by the reciprocal column is dividing them by the divisor. -/
theorem scale_eq (s : FVec Ideal Cert.KernelIdeal.S50000x256 .f32)
    (x1 : (⟨Cert.KernelIdeal.S2x400000, .i32⟩ : BufTy).Contents (Elt Ideal)) :
    scaleCol s (invK x1) = divRow s (divisor x1) :=
  scaleCol_eq_divRow s (invK x1) (divisor x1) (Ideal.ofBits .f32 0x3F800000#32) ofBits_one
    (divisor_ne_zero x1) (invK_apply x1)

/-- The kernel's closed form of any arguments is the reference's result stage of them. -/
theorem net_eq (x0 : (⟨Cert.KernelIdeal.S50000x24, .f32⟩ : BufTy).Contents (Elt Ideal))
    (x1 : (⟨Cert.KernelIdeal.S2x400000, .i32⟩ : BufTy).Contents (Elt Ideal))
    (x2 : (⟨Cert.KernelIdeal.S24x128, .f32⟩ : BufTy).Contents (Elt Ideal))
    (x3 : (⟨Cert.KernelIdeal.S128, .f32⟩ : BufTy).Contents (Elt Ideal))
    (x4 : (⟨Cert.KernelIdeal.S128x256, .f32⟩ : BufTy).Contents (Elt Ideal))
    (x5 : (⟨Cert.KernelIdeal.S256, .f32⟩ : BufTy).Contents (Elt Ideal))
    (x6 : (⟨Cert.KernelIdeal.S256x256, .f32⟩ : BufTy).Contents (Elt Ideal))
    (x7 : (⟨Cert.KernelIdeal.S256, .f32⟩ : BufTy).Contents (Elt Ideal))
    (x8 : (⟨Cert.KernelIdeal.S256x256, .f32⟩ : BufTy).Contents (Elt Ideal))
    (x9 : (⟨Cert.KernelIdeal.S256x256, .f32⟩ : BufTy).Contents (Elt Ideal))
    (x10 : (⟨Cert.KernelIdeal.S256, .f32⟩ : BufTy).Contents (Elt Ideal))
    (x11 : (⟨Cert.KernelIdeal.S256x256, .f32⟩ : BufTy).Contents (Elt Ideal))
    (x12 : (⟨Cert.KernelIdeal.S256x128, .f32⟩ : BufTy).Contents (Elt Ideal))
    (x13 : (⟨Cert.KernelIdeal.S128, .f32⟩ : BufTy).Contents (Elt Ideal))
    (x14 : (⟨Cert.KernelIdeal.S128x12, .f32⟩ : BufTy).Contents (Elt Ideal))
    (x15 : (⟨Cert.KernelIdeal.S12, .f32⟩ : BufTy).Contents (Elt Ideal)) :
    readout
        (conv (scaleCol (aggK
              (conv (scaleCol (aggK
                    (enc x0 x2 (rowOf (shapeCast Cert.KernelIdeal.S1x128 x3 Cert.KernelIdeal.Gen.shapeCasts_S128_S1x128)) x4
                      (rowOf (shapeCast Cert.KernelIdeal.S1x256 x5 Cert.KernelIdeal.Gen.shapeCasts_S256_S1x256))) x1) (invK x1))
                (enc x0 x2 (rowOf (shapeCast Cert.KernelIdeal.S1x128 x3 Cert.KernelIdeal.Gen.shapeCasts_S128_S1x128)) x4
                  (rowOf (shapeCast Cert.KernelIdeal.S1x256 x5 Cert.KernelIdeal.Gen.shapeCasts_S256_S1x256)))
                x6 (rowOf (shapeCast Cert.KernelIdeal.S1x256 x7 Cert.KernelIdeal.Gen.shapeCasts_S256_S1x256)) x8) x1) (invK x1))
          (conv (scaleCol (aggK
                (enc x0 x2 (rowOf (shapeCast Cert.KernelIdeal.S1x128 x3 Cert.KernelIdeal.Gen.shapeCasts_S128_S1x128)) x4
                  (rowOf (shapeCast Cert.KernelIdeal.S1x256 x5 Cert.KernelIdeal.Gen.shapeCasts_S256_S1x256))) x1) (invK x1))
            (enc x0 x2 (rowOf (shapeCast Cert.KernelIdeal.S1x128 x3 Cert.KernelIdeal.Gen.shapeCasts_S128_S1x128)) x4
              (rowOf (shapeCast Cert.KernelIdeal.S1x256 x5 Cert.KernelIdeal.Gen.shapeCasts_S256_S1x256)))
            x6 (rowOf (shapeCast Cert.KernelIdeal.S1x256 x7 Cert.KernelIdeal.Gen.shapeCasts_S256_S1x256)) x8)
          x9 (rowOf (shapeCast Cert.KernelIdeal.S1x256 x10 Cert.KernelIdeal.Gen.shapeCasts_S256_S1x256)) x11)
        x12 (rowOf (shapeCast Cert.KernelIdeal.S1x128 x13 Cert.KernelIdeal.Gen.shapeCasts_S128_S1x128)) x14
        (rowOf (shapeCast Cert.KernelIdeal.S1x12 x15 Cert.KernelIdeal.Gen.shapeCasts_S12_S1x12))
      = Cert.ReferenceIdeal.Read.val_main_v74 (F := Ideal) x0 x1 x2 x3 x4 x5 x6 x7 x8 x9 x10 x11 x12 x13 x14 x15 := by
  rw [ref_eq]
  simp only [rowOf_cast, scale_eq, agg_eq]

end Cert.Bridge

end
-- ==== Proof.lean ====
/-
  A two-layer mean-aggregating graph network over 50000 nodes and 400000 edges — an encoder of two rectified dense
  layers, two graph convolutions max ((mean · wl + bl) + x · wr, 0) on the mean of each node's in-neighbours' features,
  and a readout of a rectified dense layer and a plain one — as three row-tiled kernels with the gathers and the
  scatter-adds between them on the host, against the same network written with plain array operations.

  On the extended reals every matrix product is the exact sum of products, whichever unit takes it and whatever float
  format its operands pass through, so each kernel region's output array is the layer formula of its whole input
  arrays: a block of 2000 rows of a layer depends on the same 2000 rows of its row-indexed operands only, and the 25
  blocks cover the array (Region0, Region1, Region2). The host operations between the regions are the reference's own
  gather and scatter-add (KernelValue, RefValue). The two programs differ in one spelling: the kernel multiplies each
  node's summed neighbour features by the reciprocal 1 / max (in-degree, 1), the reference divides them by
  max (in-degree, 1). The divisor is at least 1, hence not 0, and a quotient by a nonzero divisor is the product with
  its inverse at every extended real, infinite ones included (Bridge); so the claim needs no finiteness of the inputs.
-/
import proofs.«131142_j50843822850084_2_alg».proof.Defs
import proofs.«131142_j50843822850084_2_alg».proof.Proof.Gen.Kernel
import proofs.«131142_j50843822850084_2_alg».proof.Proof.Gen.Kernel.Skeleton
import proofs.«131142_j50843822850084_2_alg».proof.Proof.Gen.Kernel.Launch
import proofs.«131142_j50843822850084_2_alg».proof.Proof.Gen.Kernel.Points
import proofs.«131142_j50843822850084_2_alg».proof.Proof.Gen.Kernel.Frame
import proofs.«131142_j50843822850084_2_alg».proof.Proof.Gen.KernelIdeal
import proofs.«131142_j50843822850084_2_alg».proof.Proof.Gen.KernelIdeal.Skeleton
import proofs.«131142_j50843822850084_2_alg».proof.Proof.Gen.KernelIdeal.Launch
import proofs.«131142_j50843822850084_2_alg».proof.Proof.Gen.KernelIdeal.Points
import proofs.«131142_j50843822850084_2_alg».proof.Proof.Gen.KernelIdeal.Frame
import proofs.«131142_j50843822850084_2_alg».proof.Proof.Gen.ReferenceIdeal
import proofs.«131142_j50843822850084_2_alg».proof.Proof.Gen.Pre_finite_inputs
import proofs.«131142_j50843822850084_2_alg».proof.Proof.Gen.ReferenceIdeal.Run
import proofs.«131142_j50843822850084_2_alg».proof.Proof.Gen.ReferenceIdeal.Read
import proofs.«131142_j50843822850084_2_alg».proof.Proof.KernelRun
import proofs.«131142_j50843822850084_2_alg».proof.Proof.KernelValue
import proofs.«131142_j50843822850084_2_alg».proof.Proof.RefValue
import proofs.«131142_j50843822850084_2_alg».proof.Proof.Bridge
import Idealize.ShloMosaic.Adequacy
import Idealize.ShloMosaic.Init

set_option maxRecDepth 16384

noncomputable section

namespace Cert.Proof

open Idealize.ShloMosaic Idealize.SL.Sem

/-- The kernel as printed runs, and leaves its arguments as it found them. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both idealized programs end with the network's value of the arguments
    in their result arrays: the kernel's run ends at its closed form, the reference's at its result stage, and the two
    are one function. -/
theorem algebraic : Cert.algebraic_KernelIdeal_ReferenceIdeal := by
  intro m ρ m' ρ' _ hagree
  refine ⟨fun c => Cert.KernelIdeal.Whole.outK m c, ?_, ?_⟩
  · exact (θ_run Cert.KernelIdeal.defs _ _).mono
      (fun r h c => ⟨(h c).1.trans (Cert.KernelIdeal.Whole.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v74_eq, h0, h1, h2, h3, h4, h5, h6, h7, h8, h9, h10, h11, h12, h13, h14, h15]
    exact (Cert.Bridge.net_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
